-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x160x160 : Shape := ⟨4, ![32, 32, 160, 160]⟩
abbrev S32x25600x4 : Shape := ⟨3, ![32, 25600, 4]⟩
abbrev S32x25600 : Shape := ⟨2, ![32, 25600]⟩
abbrev S_ : Shape := ⟨0, ![]⟩

class Facts : Prop where
  bcast_S_S32x32x160x160 : S_.BroadcastsInDim S32x32x160x160 (![] : Fin 0 → Fin S32x32x160x160.rank)
  reducesTo_S32x32x160x160_S_d0_1_2_3 : S32x32x160x160.ReducesTo [0, 1, 2, 3] S_
  h_S_ : 0 < S_.numel
  bcast_S_S32x25600x4 : S_.BroadcastsInDim S32x25600x4 (![] : Fin 0 → Fin S32x25600x4.rank)
  reducesTo_S32x25600x4_S_d0_1_2 : S32x25600x4.ReducesTo [0, 1, 2] S_

variable [Facts]

def fn {F : FTy → Type} [FloatOps F] (main_arg0 : FVec F S32x32x160x160 .f32) (main_arg1 : FVec F S32x25600x4 .f32) (main_arg2 : IVec S32x25600 1) : IVec S_ 1 :=
  let main_v0 : FVec F S32x32x160x160 .f32 := Host.absf main_arg0
  let main_cst : FVec F S_ .f32 := constant S_ .f32 0x7F800000#32
  let main_v1 : FVec F S32x32x160x160 .f32 := broadcastInDim S32x32x160x160 ![] bcast_S_S32x32x160x160 main_cst
  let main_v2 : IVec S32x32x160x160 1 := cmpf .olt main_v0 main_v1
  let main_c : IVec S_ 1 := constantI S_ 1 1#1
  let main_v3 : IVec S_ 1 := (fun x v => Host.reduce IntOp.andi x v reducesTo_S32x32x160x160_S_d0_1_2_3 h_S_) main_v2 main_c
  let main_v4 : FVec F S32x25600x4 .f32 := Host.absf main_arg1
  let main_cst_0 : FVec F S_ .f32 := constant S_ .f32 0x7F800000#32
  let main_v5 : FVec F S32x25600x4 .f32 := broadcastInDim S32x25600x4 ![] bcast_S_S32x25600x4 main_cst_0
  let main_v6 : IVec S32x25600x4 1 := cmpf .olt main_v4 main_v5
  let main_c_1 : IVec S_ 1 := constantI S_ 1 1#1
  let main_v7 : IVec S_ 1 := (fun x v => Host.reduce IntOp.andi x v reducesTo_S32x25600x4_S_d0_1_2 h_S_) main_v6 main_c_1
  let main_v8 : IVec S_ 1 := andi main_v3 main_v7
  main_v8
-- ==== Kernel.lean ====
abbrev S32x32x160x160 : Shape := ⟨4, ![32, 32, 160, 160]⟩
abbrev S32x25600x4 : Shape := ⟨3, ![32, 25600, 4]⟩
abbrev S32x25600 : Shape := ⟨2, ![32, 25600]⟩
abbrev S32x32x200x128 : Shape := ⟨4, ![32, 32, 200, 128]⟩
abbrev S32x4x25600 : Shape := ⟨3, ![32, 4, 25600]⟩
abbrev S32x4x200x128 : Shape := ⟨4, ![32, 4, 200, 128]⟩
abbrev S32x200x128 : Shape := ⟨3, ![32, 200, 128]⟩
abbrev S32x2 : Shape := ⟨2, ![32, 2]⟩
abbrev S8x32x40x128 : Shape := ⟨4, ![8, 32, 40, 128]⟩
abbrev S8x4x40x128 : Shape := ⟨4, ![8, 4, 40, 128]⟩
abbrev S8x40x128 : Shape := ⟨3, ![8, 40, 128]⟩
abbrev S8x2 : Shape := ⟨2, ![8, 2]⟩
abbrev S8x40 : Shape := ⟨2, ![8, 40]⟩
abbrev S8 : Shape := ⟨1, ![8]⟩
abbrev S8x8x40x128 : Shape := ⟨4, ![8, 8, 40, 128]⟩
abbrev S8x1x40x128 : Shape := ⟨4, ![8, 1, 40, 128]⟩
abbrev S8x1 : Shape := ⟨2, ![8, 1]⟩
abbrev S32x1 : Shape := ⟨2, ![32, 1]⟩
abbrev S32 : Shape := ⟨1, ![32]⟩
abbrev S_ : Shape := ⟨0, ![]⟩

abbrev nBuf : Space → Nat
  | .hbm => 26
  | .vmem => 8
  | .smem => 0
  | _ => 0

abbrev bufTy : (tb : Table) → Fin (tcTables nBuf tb) → BufTy
  | .hbm, ⟨0, _⟩ => ⟨S32x32x160x160, .f32⟩
  | .hbm, ⟨1, _⟩ => ⟨S32x25600x4, .f32⟩
  | .hbm, ⟨2, _⟩ => ⟨S32x25600, .i1⟩
  | .hbm, ⟨3, _⟩ => ⟨S32x32x200x128, .f32⟩
  | .hbm, ⟨4, _⟩ => ⟨S32x4x25600, .f32⟩
  | .hbm, ⟨5, _⟩ => ⟨S32x4x200x128, .f32⟩
  | .hbm, ⟨6, _⟩ => ⟨S32x25600, .f32⟩
  | .hbm, ⟨7, _⟩ => ⟨S32x200x128, .f32⟩
  | .hbm, ⟨8, _⟩ => ⟨S32x2, .f32⟩
  | .hbm, ⟨9, _⟩ => ⟨S32x1, .f32⟩
  | .hbm, ⟨10, _⟩ => ⟨S32, .f32⟩
  | .hbm, ⟨11, _⟩ => ⟨S_, .f32⟩
  | .hbm, ⟨12, _⟩ => ⟨S_, .f32⟩
  | .hbm, ⟨13, _⟩ => ⟨S32x1, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S8x32x40x128, .f32⟩
  | .local _ .vmem, ⟨1, _⟩ => ⟨S8x32x40x128, .f32⟩
  | .local _ .vmem, ⟨2, _⟩ => ⟨S8x4x40x128, .f32⟩
  | .local _ .vmem, ⟨3, _⟩ => ⟨S8x4x40x128, .f32⟩
  | .local _ .vmem, ⟨4, _⟩ => ⟨S8x40x128, .f32⟩
  | .local _ .vmem, ⟨5, _⟩ => ⟨S8x40x128, .f32⟩
  | .local _ .vmem, ⟨6, _⟩ => ⟨S8x2, .f32⟩
  | .local _ .vmem, ⟨7, _⟩ => ⟨S8x2, .f32⟩
  | _, _ => ⟨S32x32x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x32x40x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4x40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x40x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32x32x160x160_S32x32x200x128 : S32x32x160x160.ShapeCasts S32x32x200x128
  transposes_S32x25600x4_S32x4x25600_0_2_1 : S32x25600x4.Transposes [0, 2, 1] S32x4x25600
  shapeCasts_S32x4x25600_S32x4x200x128 : S32x4x25600.ShapeCasts S32x4x200x128
  shapeCasts_S32x25600_S32x200x128 : S32x25600.ShapeCasts S32x200x128
  inb_S8x2_S8x2_0_0 : ∀ a, (![0, 0] : Fin 2 → Nat) a + S8x2.size a ≤ S8x2.size a
  h_S8x2 : 0 < S8x2.numel
  inb_S8x40x128_S8x40x128_0_0_0 : ∀ a, (![0, 0, 0] : Fin 3 → Nat) a + S8x40x128.size a ≤ S8x40x128.size a
  h_S8x40x128 : 0 < S8x40x128.numel
  shapeCasts_S8x40x128_S8x40x128 : S8x40x128.ShapeCasts S8x40x128
  reduces_S8x40x128_S8x40 : S8x40x128.Reduces [2] S8x40
  reduces_S8x40_S8 : S8x40.Reduces [1] S8
  inb_S8x32x40x128_S8x8x40x128_0_0_0_0 : ∀ a, (![0, 0, 0, 0] : Fin 4 → Nat) a + S8x8x40x128.size a ≤ S8x32x40x128.size a
  h_S8x8x40x128 : 0 < S8x8x40x128.numel
  shapeCasts_S8x8x40x128_S8x8x40x128 : S8x8x40x128.ShapeCasts S8x8x40x128
  inb_S8x4x40x128_S8x1x40x128_0_0_0_0 : ∀ a, (![0, 0, 0, 0] : Fin 4 → Nat) a + S8x1x40x128.size a ≤ S8x4x40x128.size a
  h_S8x1x40x128 : 0 < S8x1x40x128.numel
  shapeCasts_S8x1x40x128_S8x40x128 : S8x1x40x128.ShapeCasts S8x40x128
  reduces_S8x8x40x128_S8x40x128 : S8x8x40x128.Reduces [1] S8x40x128
  shapeCasts_S8x40x128_S8x1x40x128 : S8x40x128.ShapeCasts S8x1x40x128
  broadcasts_S8x1x40x128_S8x8x40x128 : S8x1x40x128.Broadcasts S8x8x40x128
  iota_S8x8x40x128_d1_w32 : S8x8x40x128.Iotas .tc 32 [1]
  shapeCasts_S8x1x40x128_S8x1x40x128 : S8x1x40x128.ShapeCasts S8x1x40x128
  inb_S8x32x40x128_S8x8x40x128_0_8_0_0 : ∀ a, (![0, 8, 0, 0] : Fin 4 → Nat) a + S8x8x40x128.size a ≤ S8x32x40x128.size a
  inb_S8x4x40x128_S8x1x40x128_0_1_0_0 : ∀ a, (![0, 1, 0, 0] : Fin 4 → Nat) a + S8x1x40x128.size a ≤ S8x4x40x128.size a
  inb_S8x32x40x128_S8x8x40x128_0_16_0_0 : ∀ a, (![0, 16, 0, 0] : Fin 4 → Nat) a + S8x8x40x128.size a ≤ S8x32x40x128.size a
  inb_S8x4x40x128_S8x1x40x128_0_2_0_0 : ∀ a, (![0, 2, 0, 0] : Fin 4 → Nat) a + S8x1x40x128.size a ≤ S8x4x40x128.size a
  inb_S8x32x40x128_S8x8x40x128_0_24_0_0 : ∀ a, (![0, 24, 0, 0] : Fin 4 → Nat) a + S8x8x40x128.size a ≤ S8x32x40x128.size a
  inb_S8x4x40x128_S8x1x40x128_0_3_0_0 : ∀ a, (![0, 3, 0, 0] : Fin 4 → Nat) a + S8x1x40x128.size a ≤ S8x4x40x128.size a
  shapeCasts_S8_S8x1 : S8.ShapeCasts S8x1
  concatenates_S8x1_S8x1_S8x2_d1 : Shape.Concatenates [S8x1, S8x1] S8x2 1
  shapeCasts_S8x2_S8x2 : S8x2.ShapeCasts S8x2
  slices_S32x2_S32x1_0_0 : S32x2.Slices ![0, 0] S32x1
  shapeCasts_S32x1_S32 : S32x1.ShapeCasts S32
  reducesTo_S32_S_d0 : S32.ReducesTo [0] S_
  h_S_ : 0 < S_.numel
  slices_S32x2_S32x1_0_1 : S32x2.Slices ![0, 1] S32x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x40x128.size a ≤ S32x32x200x128.size a
  hwx0_0 : ∀ i : grid0.Coords, EltTy.bits .f32 = 32 ∨ (Rect.block (s := S32x32x200x128) S8x32x40x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4x40x128.size a ≤ S32x4x200x128.size a
  hwx0_1 : ∀ i : grid0.Coords, EltTy.bits .f32 = 32 ∨ (Rect.block (s := S32x4x200x128) S8x4x40x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x40x128.size a ≤ S32x200x128.size a
  hwx0_2 : ∀ i : grid0.Coords, EltTy.bits .f32 = 32 ∨ (Rect.block (s := S32x200x128) S8x40x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2.size a ≤ S32x2.size a
  hwx0_3 : ∀ i : grid0.Coords, EltTy.bits .f32 = 32 ∨ (Rect.block (s := S32x2) S8x2.size (cc0_transform_3 i) (hinb0_3 i)).WholeWords (EltTy.packing .f32)

variable [Facts₀]

abbrev win0_0 : Pipeline.Window sig grid0 :=
  Pipeline.Window.ofSpec (Memref.whole main_v0) S8x32x40x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x4x40x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x40x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x32x160x160 : Shape := ⟨4, ![32, 32, 160, 160]⟩
abbrev S32x25600x4 : Shape := ⟨3, ![32, 25600, 4]⟩
abbrev S32x25600 : Shape := ⟨2, ![32, 25600]⟩
abbrev S32x160x160x32 : Shape := ⟨4, ![32, 160, 160, 32]⟩
abbrev S32x25600x4x8 : Shape := ⟨4, ![32, 25600, 4, 8]⟩
abbrev S_ : Shape := ⟨0, ![]⟩
abbrev S32x25600x4x1 : Shape := ⟨4, ![32, 25600, 4, 1]⟩
abbrev S32x25600x4x1x1 : Shape := ⟨5, ![32, 25600, 4, 1, 1]⟩
abbrev S1 : Shape := ⟨1, ![1]⟩
abbrev S1x1x1x1x1 : Shape := ⟨5, ![1, 1, 1, 1, 1]⟩
abbrev S32x25600x1 : Shape := ⟨3, ![32, 25600, 1]⟩

abbrev nBuf : Space → Nat
  | .hbm => 111
  | .vmem => 0
  | .smem => 0
  | _ => 0

abbrev bufTy : (tb : Table) → Fin (tcTables nBuf tb) → BufTy
  | .hbm, ⟨0, _⟩ => ⟨S32x32x160x160, .f32⟩
  | .hbm, ⟨1, _⟩ => ⟨S32x25600x4, .f32⟩
  | .hbm, ⟨2, _⟩ => ⟨S32x25600, .i1⟩
  | .hbm, ⟨3, _⟩ => ⟨S32x160x160x32, .f32⟩
  | .hbm, ⟨4, _⟩ => ⟨S32x25600x4x8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x25600x4, .f32⟩
  | .hbm, ⟨9, _⟩ => ⟨S32x25600x4, .f32⟩
  | .hbm, ⟨10, _⟩ => ⟨S_, .f32⟩
  | .hbm, ⟨11, _⟩ => ⟨S32x25600x4, .f32⟩
  | .hbm, ⟨12, _⟩ => ⟨S32x25600x4, .f32⟩
  | .hbm, ⟨13, _⟩ => ⟨S32x25600x4, .f32⟩
  | .hbm, ⟨14, _⟩ => ⟨S32x25600x4, .i32⟩
  | .hbm, ⟨15, _⟩ => ⟨S_, .i32⟩
  | .hbm, ⟨16, _⟩ => ⟨S32x25600x4, .i32⟩
  | .hbm, ⟨17, _⟩ => ⟨S32x25600x4, .i32⟩
  | .hbm, ⟨18, _⟩ => ⟨S_, .i32⟩
  | .hbm, ⟨19, _⟩ => ⟨S32x25600x4, .i32⟩
  | .hbm, ⟨20, _⟩ => ⟨S32x25600x4, .i32⟩
  | .hbm, ⟨21, _⟩ => ⟨S32x25600x4, .f32⟩
  | .hbm, ⟨22, _⟩ => ⟨S32x25600x4, .f32⟩
  | .hbm, ⟨23, _⟩ => ⟨S_, .f32⟩
  | .hbm, ⟨24, _⟩ => ⟨S32x25600x4, .f32⟩
  | .hbm, ⟨25, _⟩ => ⟨S32x25600x4, .f32⟩
  | .hbm, ⟨26, _⟩ => ⟨S_, .f32⟩
  | .hbm, ⟨27, _⟩ => ⟨S32x25600x4, .f32⟩
  | .hbm, ⟨28, _⟩ => ⟨S_, .f32⟩
  | .hbm, ⟨29, _⟩ => ⟨S32x25600x4, .f32⟩
  | .hbm, ⟨30, _⟩ => ⟨S32x25600x4, .f32⟩
  | .hbm, ⟨31, _⟩ => ⟨S32x25600x4x1, .f32⟩
  | .hbm, ⟨32, _⟩ => ⟨S32x25600x4x8, .f32⟩
  | .hbm, ⟨33, _⟩ => ⟨S32x25600x4x8, .f32⟩
  | .hbm, ⟨34, _⟩ => ⟨S32x25600x4x8, .f32⟩
  | .hbm, ⟨35, _⟩ => ⟨S_, .f32⟩
  | .hbm, ⟨36, _⟩ => ⟨S32x25600x4, .f32⟩
  | .hbm, ⟨37, _⟩ => ⟨S32x25600x4x1, .f32⟩
  | .hbm, ⟨38, _⟩ => ⟨S32x25600x4x1, .f32⟩
  | .hbm, ⟨39, _⟩ => ⟨S32x25600x4x8, .f32⟩
  | .hbm, ⟨40, _⟩ => ⟨S32x25600x4x8, .f32⟩
  | .hbm, ⟨41, _⟩ => ⟨S32x25600x4x1, .i32⟩
  | .hbm, ⟨42, _⟩ => ⟨S_, .i32⟩
  | .hbm, ⟨43, _⟩ => ⟨S32x25600x4x1, .i32⟩
  | .hbm, ⟨44, _⟩ => ⟨S32x25600x4x1, .i1⟩
  | .hbm, ⟨45, _⟩ => ⟨S_, .i32⟩
  | .hbm, ⟨46, _⟩ => ⟨S32x25600x4x1, .i32⟩
  | .hbm, ⟨47, _⟩ => ⟨S32x25600x4x1, .i32⟩
  | .hbm, ⟨48, _⟩ => ⟨S32x25600x4x1, .i32⟩
  | .hbm, ⟨49, _⟩ => ⟨S32x25600x4x1x1, .i32⟩
  | .hbm, ⟨50, _⟩ => ⟨S1, .i32⟩
  | .hbm, ⟨51, _⟩ => ⟨S_, .i32⟩
  | .hbm, ⟨52, _⟩ => ⟨S32x25600x4x1x1, .i32⟩
  | .hbm, ⟨53, _⟩ => ⟨S32x25600x4x1x1, .i1⟩
  | .hbm, ⟨54, _⟩ => ⟨S1x1x1x1x1, .i32⟩
  | .hbm, ⟨55, _⟩ => ⟨S32x25600x4x1x1, .i32⟩
  | .hbm, ⟨56, _⟩ => ⟨S32x25600x4x1x1, .i1⟩
  | .hbm, ⟨57, _⟩ => ⟨S32x25600x4x1x1, .i1⟩
  | .hbm, ⟨58, _⟩ => ⟨S_, .i1⟩
  | .hbm, ⟨59, _⟩ => ⟨S32x25600x4x1, .i1⟩
  | .hbm, ⟨60, _⟩ => ⟨S32x25600x4x1, .f32⟩
  | .hbm, ⟨61, _⟩ => ⟨S_, .f32⟩
  | .hbm, ⟨62, _⟩ => ⟨S32x25600x4x1, .f32⟩
  | .hbm, ⟨63, _⟩ => ⟨S32x25600x4x1, .f32⟩
  | .hbm, ⟨64, _⟩ => ⟨S32x25600x4, .f32⟩
  | .hbm, ⟨65, _⟩ => ⟨S32x25600x4, .f32⟩
  | .hbm, ⟨66, _⟩ => ⟨S32x25600x4x1, .i32⟩
  | .hbm, ⟨67, _⟩ => ⟨S_, .i32⟩
  | .hbm, ⟨68, _⟩ => ⟨S32x25600x4x1, .i32⟩
  | .hbm, ⟨69, _⟩ => ⟨S32x25600x4x1, .i1⟩
  | .hbm, ⟨70, _⟩ => ⟨S_, .i32⟩
  | .hbm, ⟨71, _⟩ => ⟨S32x25600x4x1, .i32⟩
  | .hbm, ⟨72, _⟩ => ⟨S32x25600x4x1, .i32⟩
  | .hbm, ⟨73, _⟩ => ⟨S32x25600x4x1, .i32⟩
  | .hbm, ⟨74, _⟩ => ⟨S32x25600x4x1x1, .i32⟩
  | .hbm, ⟨75, _⟩ => ⟨S1, .i32⟩
  | .hbm, ⟨76, _⟩ => ⟨S_, .i32⟩
  | .hbm, ⟨77, _⟩ => ⟨S32x25600x4x1x1, .i32⟩
  | .hbm, ⟨78, _⟩ => ⟨S32x25600x4x1x1, .i1⟩
  | .hbm, ⟨79, _⟩ => ⟨S1x1x1x1x1, .i32⟩
  | .hbm, ⟨80, _⟩ => ⟨S32x25600x4x1x1, .i32⟩
  | .hbm, ⟨81, _⟩ => ⟨S32x25600x4x1x1, .i1⟩
  | .hbm, ⟨82, _⟩ => ⟨S32x25600x4x1x1, .i1⟩
  | .hbm, ⟨83, _⟩ => ⟨S_, .i1⟩
  | .hbm, ⟨84, _⟩ => ⟨S32x25600x4x1, .i1⟩
  | .hbm, ⟨85, _⟩ => ⟨S32x25600x4x1, .f32⟩
  | .hbm, ⟨86, _⟩ => ⟨S_, .f32⟩
  | .hbm, ⟨87, _⟩ => ⟨S32x25600x4x1, .f32⟩
  | .hbm, ⟨88, _⟩ => ⟨S32x25600x4x1, .f32⟩
  | .hbm, ⟨89, _⟩ => ⟨S32x25600x4, .f32⟩
  | .hbm, ⟨90, _⟩ => ⟨S32x25600x4, .f32⟩
  | .hbm, ⟨91, _⟩ => ⟨S32x25600x4, .f32⟩
  | .hbm, ⟨92, _⟩ => ⟨S32x25600x4, .f32⟩
  | .hbm, ⟨93, _⟩ => ⟨S32x25600x4, .f32⟩
  | .hbm, ⟨94, _⟩ => ⟨S32x25600, .f32⟩
  | .hbm, ⟨95, _⟩ => ⟨S_, .f32⟩
  | .hbm, ⟨96, _⟩ => ⟨S_, .f32⟩
  | .hbm, ⟨97, _⟩ => ⟨S32x25600x1, .f32⟩
  | .hbm, ⟨98, _⟩ => ⟨S32x25600x4, .f32⟩
  | .hbm, ⟨99, _⟩ => ⟨S32x25600x4, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .i1⟩
  | .hbm, ⟨109, _⟩ => ⟨S_, .f32⟩
  | .hbm, ⟨110, _⟩ => ⟨S_, .f32⟩
  | _, _ => ⟨S32x32x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v13 : Ref sig .tc := ⟨.hbm, 40, rfl⟩
abbrev main_v14 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_cst : Ref sig .tc := ⟨.hbm, 86, rfl⟩
abbrev main_call3_v14 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_cst_3 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_cst_4 : Ref sig .tc := ⟨.hbm, 100, rfl⟩
abbrev main_v30 : Ref sig .tc := ⟨.hbm, 101, rfl⟩
abbrev main_cst_5 : Ref sig .tc := ⟨.hbm, 102, rfl⟩
abbrev main_v31 : Ref sig .tc := ⟨.hbm, 103, rfl⟩
abbrev main_cst_6 : Ref sig .tc := ⟨.hbm, 104, rfl⟩
abbrev main_v32 : Ref sig .tc := ⟨.hbm, 105, rfl⟩
abbrev main_v33 : Ref sig .tc := ⟨.hbm, 106, rfl⟩
abbrev main_cst_7 : Ref sig .tc := ⟨.hbm, 107, rfl⟩
abbrev main_v34 : Ref sig .tc := ⟨.hbm, 108, rfl⟩
abbrev main_cst_8 : Ref sig .tc := ⟨.hbm, 109, rfl⟩
abbrev main_v35 : Ref sig .tc := ⟨.hbm, 110, rfl⟩

abbrev nD : Nat := 1
abbrev τ : Topo := Topo.v7x

variable {F : FTy → Type} [FloatOps F]

class Facts₀ : Prop where
  transposes_S32x32x160x160_S32x160x160x32_0_2_3_1 : S32x32x160x160.Transposes [0, 2, 3, 1] S32x160x160x32
  shapeCasts_S32x160x160x32_S32x25600x4x8 : S32x160x160x32.ShapeCasts S32x25600x4x8
  bcast_S_S32x25600x4 : S_.BroadcastsInDim S32x25600x4 (![] : Fin 0 → Fin S32x25600x4.rank)
  reducesTo_S32x25600x4x8_S32x25600x4_d3 : S32x25600x4x8.ReducesTo [3] S32x25600x4
  h_S_ : 0 < S_.numel
  bcast_S32x25600x4_S32x25600x4x1_0_1_2 : S32x25600x4.BroadcastsInDim S32x25600x4x1 (![0, 1, 2] : Fin 3 → Fin S32x25600x4x1.rank)
  bcast_S32x25600x4x1_S32x25600x4x8_0_1_2_3 : S32x25600x4x1.BroadcastsInDim S32x25600x4x8 (![0, 1, 2, 3] : Fin 4 → Fin S32x25600x4x8.rank)
  bcast_S_S32x25600x4x1 : S_.BroadcastsInDim S32x25600x4x1 (![] : Fin 0 → Fin S32x25600x4x1.rank)
  shapeCasts_S32x25600x4x1_S32x25600x4x1x1 : S32x25600x4x1.ShapeCasts S32x25600x4x1x1
  bcast_S_S32x25600x4x1x1 : S_.BroadcastsInDim S32x25600x4x1x1 (![] : Fin 0 → Fin S32x25600x4x1x1.rank)
  bcast_S1_S1x1x1x1x1_4 : S1.BroadcastsInDim S1x1x1x1x1 (![4] : Fin 1 → Fin S1x1x1x1x1.rank)
  bcast_S1x1x1x1x1_S32x25600x4x1x1_0_1_2_3_4 : S1x1x1x1x1.BroadcastsInDim S32x25600x4x1x1 (![0, 1, 2, 3, 4] : Fin 5 → Fin S32x25600x4x1x1.rank)
  reducesTo_S32x25600x4x1x1_S32x25600x4x1_d4 : S32x25600x4x1x1.ReducesTo [4] S32x25600x4x1
  shapeCasts_S32x25600x4x1_S32x25600x4 : S32x25600x4x1.ShapeCasts S32x25600x4
  reducesTo_S32x25600_S_d0_1 : S32x25600.ReducesTo [0, 1] S_
  bcast_S32x25600_S32x25600x1_0_1 : S32x25600.BroadcastsInDim S32x25600x1 (![0, 1] : Fin 2 → Fin S32x25600x1.rank)
  bcast_S32x25600x1_S32x25600x4_0_1_2 : S32x25600x1.BroadcastsInDim S32x25600x4 (![0, 1, 2] : Fin 3 → Fin S32x25600x4.rank)
  reducesTo_S32x25600x4_S_d0_1_2 : S32x25600x4.ReducesTo [0, 1, 2] S_
  gather_S32x25600x4x8_S32x25600x4x1x1_S32x25600x4x1_n_3_012_012_3_4_1111_wf : GatherDims.WF S32x25600x4x8 S32x25600x4x1x1 S32x25600x4x1 [] [3] [0, 1, 2] [3] [0, 1, 2] 4 ![1, 1, 1, 1]

variable [Facts₀]

def gather_S32x25600x4x8_S32x25600x4x1x1_S32x25600x4x1_n_3_012_012_3_4_1111 : GatherDims S32x25600x4x8 S32x25600x4x1x1 S32x25600x4x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S32x25600x4x8_S32x25600x4x1x1_S32x25600x4x1_n_3_012_012_3_4_1111_wf

class Facts : Prop extends Facts₀ where

variable [Facts]
-- ==== Proof.RefRunProof.lean ====
import proofs.«121826_j10127532883990_2_alg».proof.Proof.RefRead

/-!
# The reference's run

Every buffer ends at the fold of the operations' results over the launch contents (`run_after`).  Read at the result
buffer, that fold is each operation's function applied to its operands' buffers, down to the three arguments; once the
transports between a buffer's type and its value's type (identities, the references being literals) are removed, it is
the last stage's value `val_main_v35` of the arguments, stage by stage.  The run theorem then states the result by the
composed term `res_main_v35`, which is that value (`val_main_v35_eq`).
-/

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

set_option maxRecDepth 8192 in
set_option maxHeartbeats 4000000 in
/-- After the operations the result buffer holds the last stage's value of the three arguments' launch contents. -/
theorem after_main_v35 (m : (ℓ : Loc nD τ sig) → Buf (Elt F) ℓ) (c : Dev nD) :
    after (ops (F := F)) (launchContents m c) (Proc.devRef .tc main_v35)
      = val_main_v35 (F := F) (m ((c.tc : Thread nD τ).loc main_arg0)) (m ((c.tc : Thread nD τ).loc main_arg1))
          (m ((c.tc : Thread nD τ).loc main_arg2)) := by
  -- each operation's result at its own buffer is its function's value, at any other buffer what was there;
  -- the transports along a literal reference's type equation are identities
  simp (disch := decide) only [after_cons, after_nil,
    nullary_result', unary_result', binary_result', ternary_result', quaternary_result', reshape_result',
    nullary_result_ne', unary_result_ne', binary_result_ne', ternary_result_ne', quaternary_result_ne', reshape_result_ne',
    TRef.toBuf, TRef.ofBuf, cast_eq]
  rfl

set_option maxRecDepth 8192 in
set_option maxHeartbeats 4000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = res_main_v35 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c main_v35).trans (after_main_v35 m c)).trans (val_main_v35_eq m c).symm,
      (h c main_arg0).trans (by after_results_simp <;> rfl),
      (h c main_arg1).trans (by after_results_simp <;> rfl),
      (h c main_arg2).trans (by after_results_simp <;> rfl)⟩)
    (run_after m ρ)

end Cert.ReferenceIdeal.Value

end
-- ==== Proof.Spec.lean ====
import Idealize.ShloMosaic.PureOps.Ideal
import Idealize.ShloMosaic.PureOps.Ideal.Laws
import Idealize.ShloMosaic.Lib.ValueIdx

/-!
# The distribution-focal loss, one location at a time

For one spatial location and one of the four box coordinates there are eight logits `x 0 … x 7` and one
target `t`.  The target is clipped to `[0, 6.9999]`; its integer part `lo` and `hi = min (lo + 1) 7` are the two
bins it lies between, with weights `wl = 1 - wu` and `wu = t - lo`.  With `M = max x` and
`L = log (∑ exp (x k - M))`, the log-probability of bin `k` is `(x k - M) - L`, and the location's loss is

* `perR` : `wl · (-logp lo) + wu · (-logp hi)`   (two gathered log-probabilities), or
* `perK` : `(M + L) - ∑ k, x k · binw k`, where `binw k` is `wl` at `k = lo` plus `wu` at `k = hi`.

The two agree for finite logits because `wl + wu = 1`.  The loss is the sum of the masked per-location
losses over all locations and coordinates, divided by four times the number of positive locations
(`finish`).
-/

noncomputable section

namespace Cert.Dfl

open Idealize.ShloMosaic Idealize.ShloMosaic.ValueIdx

/-- The target clipped to `[0, 6.9999]` (the upper end is the float nearest `7 - 1e-4`). -/
def tclip (t : EReal) : EReal :=
  min (Ideal.ofBits .f32 0x40DFFF2E#32) (max (Ideal.ofBits .f32 0x00000000#32) t)

/-- The lower bin: the integer part of the clipped target, as a 32-bit integer. -/
def lo (t : EReal) : BitVec 32 := Ideal.fptosi 32 (Ideal.liftRound Int.floor (tclip t))

/-- The upper bin: `min (lo + 1) 7`. -/
def hi (t : EReal) : BitVec 32 := IntOp.minsi (IntOp.addi (lo t) 1#32) 7#32

/-- The weight of the upper bin: the fractional part of the clipped target. -/
def wu (t : EReal) : EReal := tclip t - (((lo t).toInt : ℝ) : EReal)

/-- The weight of the lower bin. -/
def wl (t : EReal) : EReal := Ideal.ofBits .f32 0x3F800000#32 - wu t

/-- The largest of the eight logits (a fold of `max` from `-∞`). -/
def mx (x : Fin 8 → EReal) : EReal :=
  (Finset.univ : Finset (Fin 8)).fold max (Ideal.ofBits .f32 0xFF800000#32) x

/-- `∑ k, exp (x k - max x)`. -/
def se (x : Fin 8 → EReal) : EReal := ∑ k : Fin 8, Ideal.exp (x k - mx x)

/-- `log ∑ k, exp (x k - max x)`. -/
def lse (x : Fin 8 → EReal) : EReal := Ideal.log (se x)

/-- The weight bin `k` receives: `wl` if it is the lower bin, plus `wu` if it is the upper bin. -/
def binw (t : EReal) (k : Fin 8) : EReal :=
  Scalar.select (IntOp.cmpi .eq (BitVec.ofNat 32 k.val) (lo t)) (wl t) (Ideal.ofBits .f32 0x00000000#32)
    + Scalar.select (IntOp.cmpi .eq (BitVec.ofNat 32 k.val) (hi t)) (wu t) (Ideal.ofBits .f32 0x00000000#32)

/-- One location's loss as `(M + L) - ∑ k, x k · binw k`. -/
def perK (x : Fin 8 → EReal) (t : EReal) : EReal := (mx x + lse x) - ∑ k : Fin 8, x k * binw t k

/-- The lower bin as an index of the eight logits. -/
def loF (t : EReal) : Fin 8 := ⟨(lo t).toNat % 8, Nat.mod_lt _ (by norm_num)⟩

/-- The upper bin as an index of the eight logits. -/
def hiF (t : EReal) : Fin 8 := ⟨(hi t).toNat % 8, Nat.mod_lt _ (by norm_num)⟩

/-- The log-probability of bin `k`: `(x k - M) - L`. -/
def logp (x : Fin 8 → EReal) (k : Fin 8) : EReal := (x k - mx x) - lse x

/-- One location's loss as `wl · (-logp lo) + wu · (-logp hi)`. -/
def perR (x : Fin 8 → EReal) (t : EReal) : EReal := wl t * -(logp x (loF t)) + wu t * -(logp x (hiF t))

/-- A mask bit as a number: `0` or `1`. -/
def mf (b : BitVec 1) : EReal := ((b.toNat : ℝ) : EReal)

/-- The last step: `total / (max npos 1 · 4)` when there is a positive location, else `0`. -/
def finish (total npos : EReal) : EReal :=
  Scalar.select (Ideal.cmp .ogt npos (Ideal.ofBits .f32 0x00000000#32))
    (Ideal.div total (max npos (Ideal.ofBits .f32 0x3F800000#32) * Ideal.ofBits .f32 0x40800000#32))
    (Ideal.ofBits .f32 0x00000000#32)

/-! ## The arrays, and where a location's numbers sit in them -/

/-- The logits `[32, 32, 160, 160]`: batch, channel (coordinate · 8 + bin), row, column. -/
abbrev SX : Shape := ⟨4, ![32, 32, 160, 160]⟩
/-- The targets `[32, 25600, 4]`: batch, location (row · 160 + column), coordinate. -/
abbrev ST : Shape := ⟨3, ![32, 25600, 4]⟩
/-- The mask `[32, 25600]`: batch, location. -/
abbrev SM : Shape := ⟨2, ![32, 25600]⟩

/-- The kernel lays the 25600 locations out as 200 rows of 128 lanes and walks the rows 40 at a time: location
    `(40·j + h)·128 + w`. -/
def loc (j : Fin 5) (h : Fin 40) (w : Fin 128) : Fin 25600 :=
  ⟨(j.val * 40 + h.val) * 128 + w.val, by have := j.isLt; have := h.isLt; have := w.isLt; omega⟩

/-- Bin `k` of the logits that belong to target entry `i = (batch, location, coordinate)`. -/
def xAt (i : ST.Idx) (k : Fin 8) : SX.Idx :=
  ix4 (i 0) ⟨(i 2).val * 8 + k.val, by have h2 : (i 2).val < 4 := (i 2).isLt; have := k.isLt; show _ < 32; omega⟩
    ⟨(i 1).val / 160, by have h1 : (i 1).val < 25600 := (i 1).isLt; show _ < 160; omega⟩
    ⟨(i 1).val % 160, by show _ < 160; omega⟩

/-- The mask entry of target entry `i`. -/
def mAt (i : ST.Idx) : SM.Idx := ix2 (i 0) (i 1)

/-- The masked loss of target entry `i`, with the per-location loss `per` (`perK` or `perR`). -/
def cell (per : (Fin 8 → EReal) → EReal → EReal) (X : SX.Idx → EReal) (T : ST.Idx → EReal) (M : SM.Idx → BitVec 1)
    (i : ST.Idx) : EReal :=
  per (fun k => X (xAt i k)) (T i) * mf (M (mAt i))

/-- The whole loss from the three arrays. -/
def loss (per : (Fin 8 → EReal) → EReal → EReal) (X : SX.Idx → EReal) (T : ST.Idx → EReal) (M : SM.Idx → BitVec 1) : EReal :=
  finish (∑ i : ST.Idx, cell per X T M i) (∑ i : SM.Idx, mf (M i))

end Cert.Dfl

end
-- ==== Proof.SpecBins.lean ====
import proofs.«121826_j10127532883990_2_alg».proof.Proof.Spec

/-!
# The two bins of a target

Whatever the target `t` is (an infinity too), the clipped target `tclip t` is a real in `[0, 7)`, so its integer part
`lo t` is one of `0, …, 6`, the upper bin is `hi t = lo t + 1` (the `min` with `7` never bites), and the two bins are
different indices of the eight logits.  The weight `binw t k` is therefore `wl t` at the lower bin, `wu t` at the upper bin
and `0` elsewhere, and a sum against it has just two terms.
-/

noncomputable section

namespace Cert.Dfl

open Idealize.ShloMosaic

/-! ## The constants -/

/-- The upper clip bound is the real `14679854 / 2^21`, a little below `7`. -/
theorem ofBits_clipU : Ideal.ofBits .f32 0x40DFFF2E#32 = ((14679854 / 2097152 : ℝ) : EReal) := by
  simp [Ideal.ofBits, Ideal.ieee, -EReal.coe_mul]
  norm_num

/-- The pattern `0x3F800000` is `1`. -/
theorem ofBits_one : Ideal.ofBits .f32 0x3F800000#32 = 1 := by
  simp [Ideal.ofBits, Ideal.ieee, -EReal.coe_mul]; norm_num

/-- The pattern `0xFF800000` is `-∞`. -/
theorem ofBits_ninf : Ideal.ofBits .f32 0xFF800000#32 = (⊥ : EReal) := by
  simp [Ideal.ofBits, Ideal.ieee]

/-! ## The clipped target and its integer part -/

/-- The clipped target is a real in `[0, 7)`, for every extended real `t`. -/
theorem tclip_real (t : EReal) : ∃ s : ℝ, tclip t = (s : EReal) ∧ 0 ≤ s ∧ s < 7 := by
  have h0 : (0 : EReal) ≤ tclip t := by
    unfold tclip
    rw [Ideal.ofBits_zero_f32, ofBits_clipU]
    exact le_min (EReal.coe_nonneg.2 (by norm_num)) (le_max_left _ _)
  have h1 : tclip t ≤ ((14679854 / 2097152 : ℝ) : EReal) := by
    unfold tclip
    rw [ofBits_clipU]
    exact min_le_left _ _
  have hbot : tclip t ≠ ⊥ := fun h => by rw [h] at h0; exact absurd h0 (by simp)
  have htop : tclip t ≠ ⊤ := fun h => by rw [h] at h1; exact absurd h1 (by simp)
  have hs : ((tclip t).toReal : EReal) = tclip t := EReal.coe_toReal htop hbot
  refine ⟨(tclip t).toReal, hs.symm, ?_, ?_⟩
  · rw [← hs] at h0; exact EReal.coe_nonneg.1 h0
  · rw [← hs] at h1
    have := EReal.coe_le_coe_iff.1 h1
    linarith [show (14679854 / 2097152 : ℝ) < 7 by norm_num]

/-- The lower bin is `n` for a natural number `n ≤ 6`, the integer part of the clipped target. -/
theorem lo_eq (t : EReal) :
    ∃ n : ℕ, n ≤ 6 ∧ lo t = BitVec.ofNat 32 n ∧ ∃ s : ℝ, tclip t = (s : EReal) ∧ (n : ℝ) ≤ s ∧ s < n + 1 := by
  obtain ⟨s, hs, h0, h7⟩ := tclip_real t
  have hz0 : 0 ≤ ⌊s⌋ := Int.floor_nonneg.2 h0
  have hz7 : ⌊s⌋ < 7 := Int.floor_lt.2 (by exact_mod_cast h7)
  obtain ⟨n, hn⟩ := Int.eq_ofNat_of_zero_le hz0
  refine ⟨n, by omega, ?_, s, hs, ?_, ?_⟩
  · unfold lo
    rw [hs, Ideal.liftRound_coe, Ideal.fptosi, Ideal.toIntClamped_coe, if_pos (by exact_mod_cast hz0),
      Int.floor_intCast, hn]
    have : max (-((2 ^ (32 - 1) : ℕ) : ℤ)) (min (((2 ^ (32 - 1) : ℕ) : ℤ) - 1) (n : ℤ)) = (n : ℤ) := by
      norm_num
      omega
    rw [this, BitVec.ofInt_natCast]
  · have := Int.floor_le s; rw [hn] at this; exact_mod_cast this
  · have := Int.lt_floor_add_one s; rw [hn] at this; exact_mod_cast this

/-- The lower bin is at most `6`. -/
theorem lo_toNat_le (t : EReal) : (lo t).toNat ≤ 6 := by
  obtain ⟨n, hn, hlo, -⟩ := lo_eq t
  rw [hlo, BitVec.toNat_ofNat, Nat.mod_eq_of_lt (by omega)]
  exact hn

/-- The lower bin is not negative as a signed integer. -/
theorem lo_toInt (t : EReal) : (lo t).toInt = ((lo t).toNat : ℤ) :=
  BitVec.toInt_eq_toNat_of_lt (by have := lo_toNat_le t; omega)

/-- The upper bin is the lower bin plus one: the `min` with `7` changes nothing. -/
theorem hi_eq (t : EReal) : hi t = lo t + 1#32 := by
  obtain ⟨n, hn, hlo, -⟩ := lo_eq t
  unfold hi
  rw [hlo]
  interval_cases n <;> decide

/-- The upper bin as a natural number. -/
theorem hi_toNat (t : EReal) : (hi t).toNat = (lo t).toNat + 1 := by
  obtain ⟨n, hn, hlo, -⟩ := lo_eq t
  rw [hi_eq, hlo]
  interval_cases n <;> decide

/-- The lower bin as an index of the eight logits. -/
theorem loF_val (t : EReal) : (loF t).val = (lo t).toNat := by
  have := lo_toNat_le t
  show (lo t).toNat % 8 = (lo t).toNat
  omega

/-- The upper bin as an index of the eight logits. -/
theorem hiF_val (t : EReal) : (hiF t).val = (lo t).toNat + 1 := by
  have := lo_toNat_le t
  show (hi t).toNat % 8 = (lo t).toNat + 1
  rw [hi_toNat]
  omega

/-- The two bins are different. -/
theorem loF_ne_hiF (t : EReal) : loF t ≠ hiF t := by
  intro h
  have := congrArg Fin.val h
  rw [loF_val, hiF_val] at this
  omega

/-! ## The weights -/

/-- The upper weight is a real `u` in `[0, 1)` and the lower weight is `1 - u`. -/
theorem wu_wl_real (t : EReal) :
    ∃ u : ℝ, wu t = (u : EReal) ∧ wl t = ((1 - u : ℝ) : EReal) ∧ 0 ≤ u ∧ u < 1 := by
  obtain ⟨n, hn, hlo, s, hs, h1, h2⟩ := lo_eq t
  have hN : (lo t).toNat = n := by rw [hlo, BitVec.toNat_ofNat, Nat.mod_eq_of_lt (by omega)]
  have hu : wu t = ((s - n : ℝ) : EReal) := by
    unfold wu
    rw [lo_toInt, hN, hs, Int.cast_natCast, ← EReal.coe_sub]
  refine ⟨s - n, hu, ?_, by linarith, by linarith⟩
  unfold wl
  rw [hu, ofBits_one, ← EReal.coe_one, ← EReal.coe_sub]

/-! ## The weight of a bin -/

/-- A `select` on an equality test of two words is an `if` on their equality. -/
theorem select_cmpi_eq {α : Type} (a b : BitVec 32) (u v : α) :
    Scalar.select (IntOp.cmpi .eq a b) u v = if a = b then u else v := by
  unfold Scalar.select IntOp.cmpi
  by_cases h : a = b
  · simp [h]
  · have hb : (a == b) = false := by simpa using h
    simp [hb, h]

/-- A bin index, as a 32-bit word, is a given word exactly when it is that word's value. -/
theorem ofNat_eq_iff (k : Fin 8) (a : BitVec 32) (ha : a.toNat < 8) (l : Fin 8) (hl : l.val = a.toNat) :
    BitVec.ofNat 32 k.val = a ↔ k = l := by
  have hk := k.isLt
  constructor
  · intro h
    have := congrArg BitVec.toNat h
    rw [BitVec.toNat_ofNat, Nat.mod_eq_of_lt (by omega)] at this
    exact Fin.ext (by omega)
  · rintro rfl
    apply BitVec.eq_of_toNat_eq
    rw [BitVec.toNat_ofNat, Nat.mod_eq_of_lt (by omega)]
    exact hl

/-- The weight of bin `k`: the lower weight at the lower bin, the upper weight at the upper bin, nothing elsewhere. -/
theorem binw_eq (t : EReal) (k : Fin 8) :
    binw t k = if k = loF t then wl t else if k = hiF t then wu t else 0 := by
  have hlo := lo_toNat_le t
  have h1 : BitVec.ofNat 32 k.val = lo t ↔ k = loF t :=
    ofNat_eq_iff k (lo t) (by omega) (loF t) (loF_val t)
  have h2 : BitVec.ofNat 32 k.val = hi t ↔ k = hiF t :=
    ofNat_eq_iff k (hi t) (by rw [hi_toNat]; omega) (hiF t) (by rw [hiF_val, hi_toNat])
  unfold binw
  rw [select_cmpi_eq, select_cmpi_eq, Ideal.ofBits_zero_f32]
  by_cases hk1 : k = loF t
  · have hk2 : k ≠ hiF t := fun h => loF_ne_hiF t (hk1.symm.trans h)
    rw [if_pos (h1.2 hk1), if_neg (fun h => hk2 (h2.1 h)), if_pos hk1, add_zero]
  · rw [if_neg (fun h => hk1 (h1.1 h)), if_neg hk1, zero_add]
    by_cases hk2 : k = hiF t
    · rw [if_pos (h2.2 hk2), if_pos hk2]
    · rw [if_neg (fun h => hk2 (h2.1 h)), if_neg hk2]

/-- A sum against the bin weights has two terms: the lower bin's and the upper bin's. -/
theorem sum_binw (x : Fin 8 → EReal) (t : EReal) :
    ∑ k : Fin 8, x k * binw t k = x (loF t) * wl t + x (hiF t) * wu t := by
  have hne := loF_ne_hiF t
  have h : ∀ k : Fin 8, x k * binw t k
      = (if k = loF t then x (loF t) * wl t else 0) + (if k = hiF t then x (hiF t) * wu t else 0) := by
    intro k
    rw [binw_eq]
    by_cases hk1 : k = loF t
    · subst hk1
      rw [if_pos rfl, if_pos rfl, if_neg hne, add_zero]
    · by_cases hk2 : k = hiF t
      · subst hk2
        rw [if_neg hk1, if_pos rfl, if_neg hk1, if_pos rfl, zero_add]
      · rw [if_neg hk1, if_neg hk2, if_neg hk1, if_neg hk2, mul_zero, add_zero]
  rw [Finset.sum_congr rfl (fun k _ => h k), Finset.sum_add_distrib, Finset.sum_ite_eq', Finset.sum_ite_eq',
    if_pos (Finset.mem_univ _), if_pos (Finset.mem_univ _)]

end Cert.Dfl

end
-- ==== Proof.RefOps.lean ====
import proofs.«121826_j10127532883990_2_alg».proof.Proof.Gen.ReferenceIdeal
import proofs.«121826_j10127532883990_2_alg».proof.Proof.SpecBins
import Idealize.ShloMosaic.Lib.ValueIdx
import Idealize.ShloMosaic.PureOps.Ideal.Laws
import Idealize.ShloMosaic.PureOps.Reduce

/-!
# The reference's three operations that do not read one element of each operand

Over the shapes of the reference program: the gather along the bin axis reads, at `(b, p, c, 0)`, the operand at
`(b, p, c, k)` with `k` the start index at `(b, p, c, 0, 0)` read signed and clamped into `[0, 7]`; the reduction by `and`
over the index vector's unit axis is the one bit it meets; the reduction by `max` over the bin axis is the fold of `max`
over the eight bins.  Then the words the gather sees: a bin number `0 … 7` is not wrapped, passes the in-bounds test and
is read back unchanged by the clamp, and the two bins of a target are such numbers.
-/

noncomputable section

namespace Cert.Dfl.Ref

open Cert.ReferenceIdeal Cert.ReferenceIdeal.Gen Idealize.ShloMosaic Idealize.ShloMosaic.ValueIdx

/-! ## The gather along the bin axis -/

/-- The gather's dimension numbers: operand `[32, 25600, 4, 8]`, start indices `[32, 25600, 4, 1, 1]`, the first three axes
    batching, the bin axis collapsed and indexed. -/
abbrev gd : GatherDims S32x25600x4x8 S32x25600x4x1x1 S32x25600x4x1 :=
  gather_S32x25600x4x8_S32x25600x4x1x1_S32x25600x4x1_n_3_012_012_3_4_1111

/-- The gather read at an index: the operand at the same batch coordinates and the clamped start index. -/
theorem gather_apply {α : Type} (y : S32x25600x4x8.Idx → α) (idx : IVec S32x25600x4x1x1 32) (j : S32x25600x4x1.Idx) :
    Host.gather gd y idx j
      = y (ix4 (n0 := 32) (n1 := 25600) (n2 := 4) (n3 := 8) (j 0) (j 1) (j 2)
          ⟨min (idx (ix5 (n0 := 32) (n1 := 25600) (n2 := 4) (n3 := 1) (n4 := 1) (j 0) (j 1) (j 2) 0 0)).toInt.toNat 7, by omega⟩) := by
  have h0 : gd.start j idx (0 : Fin 4) + gd.batchCoord j (0 : Fin 4) + gd.offCoord j (0 : Fin 4) = (j 0).val := by
    rw [gd.start_batching j idx _ (by decide), gd.offCoord_eq_zero j _ (by decide), Nat.zero_add, Nat.add_zero]
    rfl
  have h1 : gd.start j idx (1 : Fin 4) + gd.batchCoord j (1 : Fin 4) + gd.offCoord j (1 : Fin 4) = (j 1).val := by
    rw [gd.start_batching j idx _ (by decide), gd.offCoord_eq_zero j _ (by decide), Nat.zero_add, Nat.add_zero]
    rfl
  have h2 : gd.start j idx (2 : Fin 4) + gd.batchCoord j (2 : Fin 4) + gd.offCoord j (2 : Fin 4) = (j 2).val := by
    rw [gd.start_batching j idx _ (by decide), gd.offCoord_eq_zero j _ (by decide), Nat.zero_add, Nat.add_zero]
    rfl
  have h3 : gd.start j idx (3 : Fin 4) + gd.batchCoord j (3 : Fin 4) + gd.offCoord j (3 : Fin 4)
      = min (idx (ix5 (n0 := 32) (n1 := 25600) (n2 := 4) (n3 := 1) (n4 := 1) (j 0) (j 1) (j 2) 0 0)).toInt.toNat 7 := by
    rw [gd.batchCoord_eq_zero j _ (by decide), gd.offCoord_eq_zero j _ (by decide), Nat.add_zero]
    unfold GatherDims.start
    rw [dif_pos (show (3 : Fin 4) ∈ gd.startIndexMap by decide)]
    have hsi : gd.siIdx j ⟨List.idxOf (3 : Fin 4) gd.startIndexMap, List.idxOf_lt_length_iff.2 (by decide)⟩
        = ix5 (n0 := 32) (n1 := 25600) (n2 := 4) (n3 := 1) (n4 := 1) (j 0) (j 1) (j 2) 0 0 := by
      funext b
      refine Fin.ext ?_
      match b with
      | ⟨0, _⟩ => rfl
      | ⟨1, _⟩ => rfl
      | ⟨2, _⟩ => rfl
      | ⟨3, _⟩ =>
        have : (j 3).val < 1 := (j 3).isLt
        show (j 3).val = 0
        omega
      | ⟨4, _⟩ => rfl
    rw [hsi]
    rfl
  unfold Host.gather
  refine congrArg y ?_
  funext a
  refine Fin.ext ?_
  show gd.start j idx a + gd.batchCoord j a + gd.offCoord j a = _
  match a with
  | ⟨0, _⟩ => exact h0
  | ⟨1, _⟩ => exact h1
  | ⟨2, _⟩ => exact h2
  | ⟨3, _⟩ => exact h3

/-! ## The two reductions -/

/-- The shape fact of the reduction over the bins, in the form the inserted index is defined from. -/
theorem red8 : S32x25600x4x8.Reduces [3] S32x25600x4 := by decide

/-- The shape fact of the reduction over the index vector's unit axis. -/
theorem red1 : S32x25600x4x1x1.Reduces [4] S32x25600x4x1 := by decide

/-- A fold over a one-element index set is one application of the operation. -/
theorem fold_fin1 {α : Type} (op : α → α → α) [Std.Commutative op] [Std.Associative op] (b : α) (f : Fin 1 → α) :
    (Finset.univ : Finset (Fin 1)).fold op b f = op (f 0) b := by
  rw [Finset.univ_unique, Finset.fold_singleton]
  rfl

/-- A reduction by `and` over a unit axis, from the bit `1`, is the one element it meets. -/
theorem reduce_and_unit (x : S32x25600x4x1x1.Idx → BitVec 1) (init : S_.Idx → BitVec 1) (j : S32x25600x4x1.Idx)
    (hinit : init (Shape.Idx.first h_S_) = 1#1)
    (hx : x (ix5 (n0 := 32) (n1 := 25600) (n2 := 4) (n3 := 1) (n4 := 1) (j 0) (j 1) (j 2) 0 0) = 1#1) :
    Host.reduce IntOp.andi x init reducesTo_S32x25600x4x1x1_S32x25600x4x1_d4 h_S_ j = 1#1 := by
  rw [Host.reduce_eq_fold_single IntOp.andi x init reducesTo_S32x25600x4x1x1_S32x25600x4x1_d4 red1 h_S_ j, hinit]
  have hl : red1.lift j (0 : Fin 1) = ix5 (n0 := 32) (n1 := 25600) (n2 := 4) (n3 := 1) (n4 := 1) (j 0) (j 1) (j 2) 0 0 := by
    funext b
    refine Fin.ext ?_
    match b with
    | ⟨0, _⟩ => rfl
    | ⟨1, _⟩ => rfl
    | ⟨2, _⟩ => rfl
    | ⟨3, _⟩ =>
      have : (j 3).val < 1 := (j 3).isLt
      show (j 3).val = 0
      omega
    | ⟨4, _⟩ => rfl
  refine (fold_fin1 IntOp.andi 1#1 (x ∘ red1.lift j)).trans ?_
  show IntOp.andi (x (red1.lift j (0 : Fin 1))) 1#1 = 1#1
  rw [hl, hx]
  rfl

/-- The maximum over the eight bins, from `-∞`: the fold of `max` over the bins of one location and coordinate. -/
theorem reduce_max_bins (y : S32x25600x4x8.Idx → EReal) (init : S_.Idx → EReal) (i : S32x25600x4.Idx) :
    Host.reduce (FloatOps.maximumf (F := Ideal) (φ := .f32)) y init reducesTo_S32x25600x4x8_S32x25600x4_d3 h_S_ i
      = (Finset.univ : Finset (Fin 8)).fold max (init (Shape.Idx.first h_S_))
          (fun k => y (ix4 (n0 := 32) (n1 := 25600) (n2 := 4) (n3 := 8) (i 0) (i 1) (i 2) k)) := by
  rw [Host.reduce_eq_fold_single (FloatOps.maximumf (F := Ideal) (φ := .f32)) y init reducesTo_S32x25600x4x8_S32x25600x4_d3 red8 h_S_ i]
  have hl : (y ∘ red8.lift i) = fun k : Fin 8 => y (ix4 (n0 := 32) (n1 := 25600) (n2 := 4) (n3 := 8) (i 0) (i 1) (i 2) k) := by
    funext k
    refine congrArg y ?_
    funext a
    refine Fin.ext ?_
    match a with
    | ⟨0, _⟩ => rfl
    | ⟨1, _⟩ => rfl
    | ⟨2, _⟩ => rfl
    | ⟨3, _⟩ => rfl
  show (Finset.univ : Finset (Fin 8)).fold max (init (Shape.Idx.first h_S_)) (y ∘ red8.lift i) = _
  rw [hl]
  rfl

/-! ## The gather's index words -/

/-- The wrap of a negative index: `idx + 8` if `idx < 0`, else `idx`. -/
def wrap (w : BitVec 32) : BitVec 32 := Scalar.select (IntOp.cmpi .slt w 0#32) (IntOp.addi w 8#32) w

/-- The in-bounds test `0 ≤ idx ≤ 7`. -/
def inb (w : BitVec 32) : BitVec 1 := IntOp.andi (IntOp.cmpi .sge w 0#32) (IntOp.cmpi .sle w 7#32)

/-- A bin number below eight is not wrapped, is in bounds, and is read back unchanged by the clamp into `[0, 7]`. -/
theorem word_facts (n : ℕ) (hn : n ≤ 7) :
    wrap (BitVec.ofNat 32 n) = BitVec.ofNat 32 n ∧ inb (BitVec.ofNat 32 n) = 1#1
      ∧ min (BitVec.ofNat 32 n).toInt.toNat 7 = n := by
  interval_cases n <;> decide

theorem lo_words (t : EReal) :
    wrap (lo t) = lo t ∧ inb (lo t) = 1#1 ∧ min (lo t).toInt.toNat 7 = (loF t).val := by
  obtain ⟨n, hn, hlo, -⟩ := lo_eq t
  have hN : (lo t).toNat = n := by rw [hlo, BitVec.toNat_ofNat, Nat.mod_eq_of_lt (by omega)]
  obtain ⟨h1, h2, h3⟩ := word_facts n (by omega)
  rw [loF_val, hN, hlo]
  exact ⟨h1, h2, h3⟩

theorem hi_words (t : EReal) :
    wrap (hi t) = hi t ∧ inb (hi t) = 1#1 ∧ min (hi t).toInt.toNat 7 = (hiF t).val := by
  obtain ⟨n, hn, hlo, -⟩ := lo_eq t
  have hN : (lo t).toNat = n := by rw [hlo, BitVec.toNat_ofNat, Nat.mod_eq_of_lt (by omega)]
  have hhi : hi t = BitVec.ofNat 32 (n + 1) := by
    rw [hi_eq, hlo]
    interval_cases n <;> decide
  obtain ⟨h1, h2, h3⟩ := word_facts (n + 1) (by omega)
  rw [hiF_val, hN, hhi]
  exact ⟨h1, h2, h3⟩

end Cert.Dfl.Ref

end
-- ==== Proof.RefCell.lean ====
import proofs.«121826_j10127532883990_2_alg».proof.Proof.RefRead
import proofs.«121826_j10127532883990_2_alg».proof.Proof.RefOps

/-!
# The reference's summand

The reference program, read one target entry `(b, p, c)` at a time.  From the target it computes the clipped target, the two
bins and the two weights of the specification.  From the logits it computes, for each of the eight bins `k`, the
log-probability `(x k - max x) - log ∑ exp (x · - max x)`: the transposed and reshaped logits at `(b, p, c, k)` are the logit at
channel `8 c + k`, row `p / 160`, column `p % 160`; the reduction over the bins is the fold of `max`, and the further maximum with
`-∞` changes nothing.  The two gathers read the log-probability at the lower and at the upper bin: both bins are in `[0, 7]`, so
the wrap of negative indices, the clamp and the out-of-bounds fill never act.  The summand is then
`(wl · (-logp lo) + wu · (-logp hi)) · mask`, the specification's `cell perR`.
-/

noncomputable section

namespace Cert.Dfl.Ref

open Cert.ReferenceIdeal Cert.ReferenceIdeal.Gen Cert.ReferenceIdeal.Read Idealize.ShloMosaic Idealize.ShloMosaic.ValueIdx

/-! ## The target's side -/

section
variable (X : (⟨S32x32x160x160, .f32⟩ : BufTy).Contents (Elt Ideal)) (T : (⟨S32x25600x4, .f32⟩ : BufTy).Contents (Elt Ideal))
  (M : (⟨S32x25600, .i1⟩ : BufTy).Contents (Elt Ideal))

/-- The clipped target. -/
theorem v2_eq (i : S32x25600x4.Idx) : val_main_v2 (F := Ideal) T i = tclip (T i) := by
  rw [val_main_v2_apply, val_main_call0_v4_apply, val_main_call0_v3_apply, val_main_cst_0_apply, val_main_call0_v2_apply,
    val_main_call0_v1_apply, val_main_call0_v0_apply, val_main_cst_apply]
  rfl

/-- The lower bin. -/
theorem v4_eq (i : S32x25600x4.Idx) : val_main_v4 (F := Ideal) T i = lo (T i) := by
  rw [val_main_v4_apply, val_main_v3_apply, v2_eq]
  rfl

/-- The upper bin. -/
theorem v8_eq (i : S32x25600x4.Idx) : val_main_v8 (F := Ideal) T i = hi (T i) := by
  rw [val_main_v8_apply, val_main_v6_apply, v4_eq, val_main_v5_apply, val_main_c_apply, val_main_v7_apply, val_main_c_1_apply]
  rfl

/-- The upper weight. -/
theorem v10_eq (i : S32x25600x4.Idx) : val_main_v10 (F := Ideal) T i = wu (T i) := by
  rw [val_main_v10_apply, v2_eq, val_main_v9_apply, v4_eq]
  rfl

/-- The lower weight. -/
theorem v12_eq (i : S32x25600x4.Idx) : val_main_v12 (F := Ideal) T i = wl (T i) := by
  rw [val_main_v12_apply, val_main_v11_apply, val_main_cst_2_apply, v10_eq]
  rfl

end

/-! ## The logits' side -/

section
variable (X : (⟨S32x32x160x160, .f32⟩ : BufTy).Contents (Elt Ideal)) (T : (⟨S32x25600x4, .f32⟩ : BufTy).Contents (Elt Ideal))
  (M : (⟨S32x25600, .i1⟩ : BufTy).Contents (Elt Ideal))

/-- The eight logits of target entry `(b, p, c)`. -/
abbrev xs (b : Fin 32) (p : Fin 25600) (c : Fin 4) : Fin 8 → EReal := fun k => X (xAt (ix3 b p c) k)

/-- The transposed and reshaped logits at `(b, p, c, k)`: the logit at channel `8 c + k`, row `p / 160`, column `p % 160`. -/
theorem v1_eq (b : Fin 32) (p : Fin 25600) (c : Fin 4) (k : Fin 8) :
    val_main_v1 (F := Ideal) X (ix4 b p c k) = xs X b p c k := by
  rw [val_main_v1_apply, val_main_v0_apply]
  refine congrArg X ?_
  funext a
  refine Fin.ext ?_
  have hb := b.isLt; have hp := p.isLt; have hc := c.isLt; have hk := k.isLt
  match a with
  | ⟨0, _⟩ => show (((b.val * 25600 + p.val) * 4 + c.val) * 8 + k.val) / 819200 = b.val; omega
  | ⟨1, _⟩ => show (((b.val * 25600 + p.val) * 4 + c.val) * 8 + k.val) % 32 = c.val * 8 + k.val; omega
  | ⟨2, _⟩ => show (((b.val * 25600 + p.val) * 4 + c.val) * 8 + k.val) / 5120 % 160 = p.val / 160; omega
  | ⟨3, _⟩ => show (((b.val * 25600 + p.val) * 4 + c.val) * 8 + k.val) / 32 % 160 = p.val % 160; omega

/-- The reduction over the bins is the largest logit. -/
theorem call1_v0_eq (b : Fin 32) (p : Fin 25600) (c : Fin 4) :
    val_main_call1_v0 (F := Ideal) X (ix3 b p c) = mx (xs X b p c) := by
  unfold val_main_call1_v0
  rw [reduce_max_bins]
  have h : (fun k : Fin 8 => val_main_v1 (F := Ideal) X (ix4 (n0 := 32) (n1 := 25600) (n2 := 4) (n3 := 8)
      ((ix3 b p c : S32x25600x4.Idx) 0) ((ix3 b p c : S32x25600x4.Idx) 1) ((ix3 b p c : S32x25600x4.Idx) 2) k)) = xs X b p c :=
    funext fun k => v1_eq X b p c k
  rw [h]
  rfl

/-- The maximum with `-∞` once more changes nothing. -/
theorem call1_v2_eq (b : Fin 32) (p : Fin 25600) (c : Fin 4) :
    val_main_call1_v2 (F := Ideal) X (ix3 b p c) = mx (xs X b p c) := by
  rw [val_main_call1_v2_apply, val_main_call1_v1_apply, val_main_call1_cst_0_apply, call1_v0_eq]
  show max (Ideal.ofBits .f32 0xFF800000#32) (mx (xs X b p c)) = mx (xs X b p c)
  rw [ofBits_ninf]
  exact max_eq_right bot_le

/-- A logit less the largest. -/
theorem call1_v5_eq (b : Fin 32) (p : Fin 25600) (c : Fin 4) (k : Fin 8) :
    val_main_call1_v5 (F := Ideal) X (ix4 b p c k) = xs X b p c k - mx (xs X b p c) := by
  rw [val_main_call1_v5_apply, v1_eq, val_main_call1_v4_apply, val_main_call1_v3_apply]
  have hi : idx_main_call1_v3 (idx_main_call1_v4 (ix4 b p c k)) = ix3 b p c :=
    funext fun a => Fin.ext (by match a with | ⟨0, _⟩ => rfl | ⟨1, _⟩ => rfl | ⟨2, _⟩ => rfl)
  rw [hi, call1_v2_eq]
  rfl

/-- The sum of the exponentials. -/
theorem call1_v7_eq (b : Fin 32) (p : Fin 25600) (c : Fin 4) :
    val_main_call1_v7 (F := Ideal) X (ix3 b p c) = se (xs X b p c) := by
  rw [val_main_call1_v7_apply]
  have hi : ∀ k : Fin 8, idx_main_call1_v7 (ix3 b p c) k = ix4 b p c k := fun k =>
    funext fun a => Fin.ext (by match a with | ⟨0, _⟩ => rfl | ⟨1, _⟩ => rfl | ⟨2, _⟩ => rfl | ⟨3, _⟩ => rfl)
  simp only [hi, val_main_call1_v6_apply, call1_v5_eq]
  show Ideal.ofBits .f32 0x00000000#32 + ∑ k : Fin 8, Ideal.exp (xs X b p c k - mx (xs X b p c)) = se (xs X b p c)
  rw [Ideal.ofBits_zero_f32, zero_add]
  rfl

/-- The log-probability of bin `k`. -/
theorem v13_eq (b : Fin 32) (p : Fin 25600) (c : Fin 4) (k : Fin 8) :
    val_main_v13 (F := Ideal) X (ix4 b p c k) = logp (xs X b p c) k := by
  rw [val_main_v13_apply, call1_v5_eq, val_main_call1_v10_apply, val_main_call1_v9_apply, val_main_call1_v8_apply]
  have hi : idx_main_call1_v8 (idx_main_call1_v10 (ix4 b p c k)) = ix3 b p c :=
    funext fun a => Fin.ext (by match a with | ⟨0, _⟩ => rfl | ⟨1, _⟩ => rfl | ⟨2, _⟩ => rfl)
  rw [hi, call1_v7_eq]
  rfl

end

/-! ## The first gather: the lower bin -/

section
variable (X : (⟨S32x32x160x160, .f32⟩ : BufTy).Contents (Elt Ideal)) (T : (⟨S32x25600x4, .f32⟩ : BufTy).Contents (Elt Ideal))
  (M : (⟨S32x25600, .i1⟩ : BufTy).Contents (Elt Ideal))

/-- The first gather's start index at `(b, p, c, 0, 0)`: the lower bin, wrapped. -/
theorem call2_v5_eq (b : Fin 32) (p : Fin 25600) (c : Fin 4) :
    val_main_call2_v5 (F := Ideal) T (ix5 (n3 := 1) (n4 := 1) b p c 0 0) = wrap (lo (T (ix3 b p c))) := by
  rw [val_main_call2_v5_apply, val_main_call2_v4_apply, val_main_call2_v1_apply, val_main_call2_v3_apply, val_main_v14_apply,
    val_main_call2_v0_apply, val_main_call2_c_apply, val_main_call2_v2_apply, val_main_call2_c_0_apply]
  have hi : idx_main_v14 (idx_main_call2_v5 (ix5 (n3 := 1) (n4 := 1) b p c 0 0)) = ix3 b p c := by
    funext a
    refine Fin.ext ?_
    have hb := b.isLt; have hp := p.isLt; have hc := c.isLt
    match a with
    | ⟨0, _⟩ => show ((((b.val * 25600 + p.val) * 4 + c.val) * 1 + 0) * 1 + 0) / 102400 = b.val; omega
    | ⟨1, _⟩ => show ((((b.val * 25600 + p.val) * 4 + c.val) * 1 + 0) * 1 + 0) / 4 % 25600 = p.val; omega
    | ⟨2, _⟩ => show ((((b.val * 25600 + p.val) * 4 + c.val) * 1 + 0) * 1 + 0) / 1 % 4 = c.val; omega
  rw [hi, v4_eq]
  rfl

/-- The first gather's start index is in bounds everywhere. -/
theorem call2_v12_eq (b : Fin 32) (p : Fin 25600) (c : Fin 4) (q : Fin 1) :
    val_main_call2_v12 (F := Ideal) T (ix4 b p c q) = 1#1 := by
  unfold val_main_call2_v12
  refine reduce_and_unit _ _ _ rfl ?_
  show val_main_call2_v11 (F := Ideal) T (ix5 (n3 := 1) (n4 := 1) b p c 0 0) = 1#1
  rw [val_main_call2_v11_apply, val_main_call2_v7_apply, val_main_call2_v10_apply, call2_v5_eq, val_main_call2_v6_apply,
    val_main_call2_c_2_apply, val_main_call2_v9_apply, val_main_call2_v8_apply, val_main_call2_c_1_apply, (lo_words _).1]
  exact (lo_words _).2.1

/-- The first gathered log-probability: the lower bin's. -/
theorem v15_eq (b : Fin 32) (p : Fin 25600) (c : Fin 4) (q : Fin 1) :
    val_main_v15 (F := Ideal) X T (ix4 b p c q) = logp (xs X b p c) (loF (T (ix3 b p c))) := by
  rw [val_main_v15_apply, call2_v12_eq, select_one]
  unfold val_main_call2_v13
  rw [gather_apply]
  have hk : (⟨min (val_main_call2_v5 (F := Ideal) T (ix5 (n0 := 32) (n1 := 25600) (n2 := 4) (n3 := 1) (n4 := 1) b p c 0 0)).toInt.toNat 7,
      by omega⟩ : Fin 8) = loF (T (ix3 b p c)) :=
    Fin.ext (by
      show min (val_main_call2_v5 (F := Ideal) T (ix5 (n3 := 1) (n4 := 1) b p c 0 0)).toInt.toNat 7 = _
      rw [call2_v5_eq, (lo_words _).1]
      exact (lo_words _).2.2)
  refine (congrArg (fun k : Fin 8 => val_main_v13 (F := Ideal) X (ix4 b p c k)) hk).trans ?_
  exact v13_eq X b p c _

/-- The lower bin's negated log-probability. -/
theorem v17_eq (b : Fin 32) (p : Fin 25600) (c : Fin 4) :
    val_main_v17 (F := Ideal) X T (ix3 b p c) = -(logp (xs X b p c) (loF (T (ix3 b p c)))) := by
  rw [val_main_v17_apply, val_main_v16_apply]
  have hi : idx_main_v16 (ix3 b p c) = ix4 (n3 := 1) b p c 0 := by
    funext a
    refine Fin.ext ?_
    have hb := b.isLt; have hp := p.isLt; have hc := c.isLt
    match a with
    | ⟨0, _⟩ => show ((b.val * 25600 + p.val) * 4 + c.val) / 102400 = b.val; omega
    | ⟨1, _⟩ => show ((b.val * 25600 + p.val) * 4 + c.val) / 4 % 25600 = p.val; omega
    | ⟨2, _⟩ => show ((b.val * 25600 + p.val) * 4 + c.val) / 1 % 4 = c.val; omega
    | ⟨3, _⟩ => rfl
  rw [hi, v15_eq]
  rfl

end

/-! ## The second gather, and the summand -/

section
variable (X : (⟨S32x32x160x160, .f32⟩ : BufTy).Contents (Elt Ideal)) (T : (⟨S32x25600x4, .f32⟩ : BufTy).Contents (Elt Ideal))
  (M : (⟨S32x25600, .i1⟩ : BufTy).Contents (Elt Ideal))

/-- The second gather's start index at `(b, p, c, 0, 0)`: the upper bin, wrapped. -/
theorem call3_v5_eq (b : Fin 32) (p : Fin 25600) (c : Fin 4) :
    val_main_call3_v5 (F := Ideal) T (ix5 (n3 := 1) (n4 := 1) b p c 0 0) = wrap (hi (T (ix3 b p c))) := by
  rw [val_main_call3_v5_apply, val_main_call3_v4_apply, val_main_call3_v1_apply, val_main_call3_v3_apply, val_main_v18_apply,
    val_main_call3_v0_apply, val_main_call3_c_apply, val_main_call3_v2_apply, val_main_call3_c_0_apply]
  have hi' : idx_main_v18 (idx_main_call3_v5 (ix5 (n3 := 1) (n4 := 1) b p c 0 0)) = ix3 b p c := by
    funext a
    refine Fin.ext ?_
    have hb := b.isLt; have hp := p.isLt; have hc := c.isLt
    match a with
    | ⟨0, _⟩ => show ((((b.val * 25600 + p.val) * 4 + c.val) * 1 + 0) * 1 + 0) / 102400 = b.val; omega
    | ⟨1, _⟩ => show ((((b.val * 25600 + p.val) * 4 + c.val) * 1 + 0) * 1 + 0) / 4 % 25600 = p.val; omega
    | ⟨2, _⟩ => show ((((b.val * 25600 + p.val) * 4 + c.val) * 1 + 0) * 1 + 0) / 1 % 4 = c.val; omega
  rw [hi', v8_eq]
  rfl

/-- The second gather's start index is in bounds everywhere. -/
theorem call3_v12_eq (b : Fin 32) (p : Fin 25600) (c : Fin 4) (q : Fin 1) :
    val_main_call3_v12 (F := Ideal) T (ix4 b p c q) = 1#1 := by
  unfold val_main_call3_v12
  refine reduce_and_unit _ _ _ rfl ?_
  show val_main_call3_v11 (F := Ideal) T (ix5 (n3 := 1) (n4 := 1) b p c 0 0) = 1#1
  rw [val_main_call3_v11_apply, val_main_call3_v7_apply, val_main_call3_v10_apply, call3_v5_eq, val_main_call3_v6_apply,
    val_main_call3_c_2_apply, val_main_call3_v9_apply, val_main_call3_v8_apply, val_main_call3_c_1_apply, (hi_words _).1]
  exact (hi_words _).2.1

/-- The second gathered log-probability: the upper bin's. -/
theorem v19_eq (b : Fin 32) (p : Fin 25600) (c : Fin 4) (q : Fin 1) :
    val_main_v19 (F := Ideal) X T (ix4 b p c q) = logp (xs X b p c) (hiF (T (ix3 b p c))) := by
  rw [val_main_v19_apply, call3_v12_eq, select_one]
  unfold val_main_call3_v13
  rw [gather_apply]
  have hk : (⟨min (val_main_call3_v5 (F := Ideal) T (ix5 (n0 := 32) (n1 := 25600) (n2 := 4) (n3 := 1) (n4 := 1) b p c 0 0)).toInt.toNat 7,
      by omega⟩ : Fin 8) = hiF (T (ix3 b p c)) :=
    Fin.ext (by
      show min (val_main_call3_v5 (F := Ideal) T (ix5 (n3 := 1) (n4 := 1) b p c 0 0)).toInt.toNat 7 = _
      rw [call3_v5_eq, (hi_words _).1]
      exact (hi_words _).2.2)
  refine (congrArg (fun k : Fin 8 => val_main_v13 (F := Ideal) X (ix4 b p c k)) hk).trans ?_
  exact v13_eq X b p c _

/-- The upper bin's negated log-probability. -/
theorem v21_eq (b : Fin 32) (p : Fin 25600) (c : Fin 4) :
    val_main_v21 (F := Ideal) X T (ix3 b p c) = -(logp (xs X b p c) (hiF (T (ix3 b p c)))) := by
  rw [val_main_v21_apply, val_main_v20_apply]
  have hi' : idx_main_v20 (ix3 b p c) = ix4 (n3 := 1) b p c 0 := by
    funext a
    refine Fin.ext ?_
    have hb := b.isLt; have hp := p.isLt; have hc := c.isLt
    match a with
    | ⟨0, _⟩ => show ((b.val * 25600 + p.val) * 4 + c.val) / 102400 = b.val; omega
    | ⟨1, _⟩ => show ((b.val * 25600 + p.val) * 4 + c.val) / 4 % 25600 = p.val; omega
    | ⟨2, _⟩ => show ((b.val * 25600 + p.val) * 4 + c.val) / 1 % 4 = c.val; omega
    | ⟨3, _⟩ => rfl
  rw [hi', v19_eq]
  rfl

/-- The loss of one target entry before the mask. -/
theorem v24_eq (b : Fin 32) (p : Fin 25600) (c : Fin 4) :
    val_main_v24 (F := Ideal) X T (ix3 b p c) = perR (xs X b p c) (T (ix3 b p c)) := by
  rw [val_main_v24_apply, val_main_v22_apply, val_main_v23_apply, v12_eq, v17_eq, v10_eq, v21_eq]
  rfl

/-- The mask as a number, spread over the four coordinates. -/
theorem v28_eq (b : Fin 32) (p : Fin 25600) (c : Fin 4) :
    val_main_v28 (F := Ideal) M (ix3 b p c) = mf (M (ix2 b p)) := by
  rw [val_main_v28_apply, val_main_v27_apply, val_main_v25_apply]
  have hi' : idx_main_v27 (idx_main_v28 (ix3 b p c)) = ix2 b p :=
    funext fun a => Fin.ext (by match a with | ⟨0, _⟩ => rfl | ⟨1, _⟩ => rfl)
  rw [hi']
  rfl

/-- The masked loss of a target entry: the reference's summand is the specification's. -/
theorem v29_eq (i : S32x25600x4.Idx) :
    val_main_v29 (F := Ideal) X T M i = cell perR X T M i := by
  obtain ⟨b, p, c, rfl⟩ : ∃ (b : Fin 32) (p : Fin 25600) (c : Fin 4), i = ix3 b p c := ⟨i 0, i 1, i 2, eq_ix3 i⟩
  rw [val_main_v29_apply, v24_eq, v28_eq]
  rfl

end

end Cert.Dfl.Ref

end
-- ==== Proof.RefLoss.lean ====
import proofs.«121826_j10127532883990_2_alg».proof.Proof.RefCell

/-!
# The reference's value

The reference's result is the specification's loss with the two-gather form `perR` of the per-entry loss: its total is
`0 + ∑` of the summands over all target entries, its count of positive locations `0 + ∑` of the mask read as numbers, and
its last steps (the comparison with zero, the maximum with one, the product with four, the quotient, the select) are the
specification's `finish`.
-/

noncomputable section

namespace Cert.Dfl.Ref

open Cert.ReferenceIdeal Cert.ReferenceIdeal.Gen Cert.ReferenceIdeal.Read Idealize.ShloMosaic Idealize.ShloMosaic.ValueIdx

section
variable (X : (⟨S32x32x160x160, .f32⟩ : BufTy).Contents (Elt Ideal)) (T : (⟨S32x25600x4, .f32⟩ : BufTy).Contents (Elt Ideal))
  (M : (⟨S32x25600, .i1⟩ : BufTy).Contents (Elt Ideal))

/-- The reference computes the specification's loss with the two-gather form of the per-entry loss. -/
theorem ref_loss :
    val_main_v35 (F := Ideal) X T M = fun _ => loss perR X T M := by
  funext i
  rw [val_main_v35_apply, val_main_v34_apply, val_main_v33_apply, val_main_v30_apply, val_main_v32_apply, val_main_v31_apply,
    val_main_v26_apply, val_main_cst_3_apply, val_main_cst_4_apply, val_main_cst_5_apply, val_main_cst_6_apply,
    val_main_cst_7_apply, val_main_cst_8_apply]
  simp only [v29_eq, val_main_v25_apply]
  unfold loss finish
  simp only [Ideal.ofBits_def, Ideal.ofBits_zero_f32, zero_add]
  rfl

end

end Cert.Dfl.Ref

end
-- ==== Proof.BlockDef.lean ====
import proofs.«121826_j10127532883990_2_alg».proof.Proof.Spec
import proofs.«121826_j10127532883990_2_alg».proof.Proof.Gen.KernelIdeal.Frame

/-!
# What one grid point adds to its output block

At a grid point the kernel sees a block of logits `x0 : [8, 32, 40, 128]` (eight batch rows, all 32 channels,
40 rows of 128 lanes), the matching block of targets `x1 : [8, 4, 40, 128]` and of the mask `x2 : [8, 40, 128]`.
For batch row `b` it adds to column 0 of its `[8, 2]` output block the masked losses of that row's locations in the
block, summed over the four coordinates (`blkTot`), and to column 1 the number of positive locations (`blkPos`).
-/

noncomputable section

namespace Cert.Dfl

open Idealize.ShloMosaic Idealize.ShloMosaic.ValueIdx Cert.KernelIdeal Cert.KernelIdeal.Gen

/-- Channel `c · 8 + k` of the 32. -/
def chan (c : Fin 4) (k : Fin 8) : Fin 32 := ⟨c.val * 8 + k.val, by have := c.isLt; have := k.isLt; omega⟩

/-- The masked losses of batch row `b`'s locations in the block, summed over coordinates, rows and lanes. -/
def blkTot (x0 : S8x32x40x128.Idx → EReal) (x1 : S8x4x40x128.Idx → EReal) (x2 : S8x40x128.Idx → EReal) (b : Fin 8) : EReal :=
  ∑ c : Fin 4, ∑ h : Fin 40, ∑ w : Fin 128,
    perK (fun k => x0 (ix4 b (chan c k) h w)) (x1 (ix4 b c h w)) * x2 (ix3 b h w)

/-- The mask of batch row `b`'s locations in the block, summed. -/
def blkPos (x2 : S8x40x128.Idx → EReal) (b : Fin 8) : EReal := ∑ h : Fin 40, ∑ w : Fin 128, x2 (ix3 b h w)

/-- What the point adds to its `[8, 2]` output block. -/
def blk (x0 : S8x32x40x128.Idx → EReal) (x1 : S8x4x40x128.Idx → EReal) (x2 : S8x40x128.Idx → EReal) : S8x2.Idx → EReal :=
  fun y => if (y 1).val = 0 then blkTot x0 x1 x2 (y 0) else blkPos x2 (y 0)

end Cert.Dfl

end
-- ==== Proof.LibAxes4.lean ====
import Idealize.ShloMosaic.Lib.Pipeline.Value
import Idealize.ShloMosaic.Lib.ValueIdx
import Idealize.ShloMosaic.PureOps.Ideal.Laws

/-!
# Four-axis arrays `[a, b, c, d]` whose second axis is reduced, dropped or broadcast

Reading at coordinates: a sum or a maximum over the second axis of `[a, b, c, d]`; the casts
`[a, c, d] ↔ [a, 1, c, d]`; the broadcast `[a, 1, c, d] → [a, b, c, d]`; an iota along the second axis.
-/

noncomputable section

namespace Cert.Lib.Axes4

open Idealize.ShloMosaic Idealize.ShloMosaic.ValueIdx

variable {α : Type}

/-- Two indices of a four-axis shape with the same coordinates are equal. -/
theorem ext4 {n0 n1 n2 n3 : ℕ} {f g : (⟨4, ![n0, n1, n2, n3]⟩ : Shape).Idx} (h0 : (f 0).val = (g 0).val) (h1 : (f 1).val = (g 1).val)
    (h2 : (f 2).val = (g 2).val) (h3 : (f 3).val = (g 3).val) : f = g :=
  funext fun a => Fin.ext (by match a with | ⟨0, _⟩ => exact h0 | ⟨1, _⟩ => exact h1 | ⟨2, _⟩ => exact h2 | ⟨3, _⟩ => exact h3)

/-- An `[a, c, d]` array cast to `[a, 1, c, d]` reads, at `(i, u, p, q)`, the operand at `(i, p, q)`. -/
theorem shapeCast_addMid_apply {a c d : ℕ} (x : (⟨3, ![a, c, d]⟩ : Shape).Idx → α)
    (h : (⟨3, ![a, c, d]⟩ : Shape).ShapeCasts ⟨4, ![a, 1, c, d]⟩) (i : Fin a) (u : Fin 1) (p : Fin c) (q : Fin d) :
    shapeCast ⟨4, ![a, 1, c, d]⟩ x h (ix4 i u p q) = x (ix3 i p q) :=
  shapeCast_apply x h _ _ (by
    have hu : u.val = 0 := by omega
    rw [Shape.rowMajor_val_three, Shape.rowMajor_val_four]
    show (i.val * c + p.val) * d + q.val = ((i.val * 1 + u.val) * c + p.val) * d + q.val
    rw [hu, Nat.mul_one, Nat.add_zero])

/-- An `[a, 1, c, d]` array cast to `[a, c, d]` reads, at `(i, p, q)`, the operand at `(i, 0, p, q)`. -/
theorem shapeCast_dropMid_apply {a c d : ℕ} (x : (⟨4, ![a, 1, c, d]⟩ : Shape).Idx → α)
    (h : (⟨4, ![a, 1, c, d]⟩ : Shape).ShapeCasts ⟨3, ![a, c, d]⟩) (i : Fin a) (p : Fin c) (q : Fin d) :
    shapeCast ⟨3, ![a, c, d]⟩ x h (ix3 i p q) = x (ix4 i (0 : Fin 1) p q) :=
  shapeCast_apply x h _ _ (by
    rw [Shape.rowMajor_val_three, Shape.rowMajor_val_four]
    show ((i.val * 1 + 0) * c + p.val) * d + q.val = (i.val * c + p.val) * d + q.val
    rw [Nat.mul_one, Nat.add_zero])

/-- An `[a, 1, c, d]` array broadcast to `[a, b, c, d]` reads, at `(i, j, p, q)`, the operand at `(i, 0, p, q)`. -/
theorem broadcastTo_mid_apply {a b c d : ℕ} (v : (⟨4, ![a, 1, c, d]⟩ : Shape).Idx → α)
    (h : (⟨4, ![a, 1, c, d]⟩ : Shape).Broadcasts ⟨4, ![a, b, c, d]⟩) (i : Fin a) (j : Fin b) (p : Fin c) (q : Fin d) :
    broadcastTo ⟨4, ![a, b, c, d]⟩ v h (ix4 i j p q) = v (ix4 i (0 : Fin 1) p q) := by
  refine broadcastTo_apply v h (ix4 i j p q) (ix4 i (0 : Fin 1) p q) fun ax => ?_
  match ax with
  | ⟨0, _⟩ =>
    show i.val = if a = 1 then 0 else i.val
    split
    · have := i.isLt; omega
    · rfl
  | ⟨1, _⟩ => rfl
  | ⟨2, _⟩ =>
    show p.val = if c = 1 then 0 else p.val
    split
    · have := p.isLt; omega
    · rfl
  | ⟨3, _⟩ =>
    show q.val = if d = 1 then 0 else q.val
    split
    · have := q.isLt; omega
    · rfl

/-- Dropping the second axis of `[a, b, c, d]`: the kept index `(i, p, q)` with coordinate `j` put back is `(i, j, p, q)`. -/
theorem lift_second {a b c d : ℕ} (h : (⟨4, ![a, b, c, d]⟩ : Shape).Reduces [1] (⟨3, ![a, c, d]⟩ : Shape)) (i : Fin a) (p : Fin c) (q : Fin d)
    (j : Fin ((⟨4, ![a, b, c, d]⟩ : Shape).size 1)) : h.lift (ix3 i p q) j = ix4 i (⟨j.val, j.isLt⟩ : Fin b) p q := by
  funext e; apply Fin.ext
  fin_cases e <;> rfl

variable {φ : FTy}

/-- A sum along the second axis of `[a, b, c, d]`, at `(i, p, q)`, is the sum over `j` of the entries `(i, j, p, q)`. -/
theorem sum_second_apply {a b c d : ℕ} (src : FVec Ideal ⟨4, ![a, b, c, d]⟩ φ) (acc : BitVec φ.bits)
    (h : (⟨4, ![a, b, c, d]⟩ : Shape).Reduces [1] (⟨3, ![a, c, d]⟩ : Shape)) (hφ : FKind.Formats φ) (hacc : acc = FKind.add.neutral φ hφ)
    (i : Fin a) (p : Fin c) (q : Fin d) :
    multiReduction .add [1] ⟨3, ![a, c, d]⟩ src acc h hφ hacc (ix3 i p q) = ∑ j : Fin b, src (ix4 i j p q) :=
  (Ideal.multiReduction_add_single src acc h hφ hacc (ix3 i p q)).trans
    (Finset.sum_congr rfl fun j _ => congrArg src (lift_second h i p q j))

/-- A maximum along the second axis of `[a, b, c, d]`, at `(i, p, q)`: the fold of max from the start value over the entries `(i, j, p, q)`. -/
theorem max_second_apply {a b c d : ℕ} (src : FVec Ideal ⟨4, ![a, b, c, d]⟩ φ) (acc : BitVec φ.bits)
    (h : (⟨4, ![a, b, c, d]⟩ : Shape).Reduces [1] (⟨3, ![a, c, d]⟩ : Shape)) (hφ : FKind.Formats φ) (hacc : acc = FKind.maximumf.neutral φ hφ)
    (i : Fin a) (p : Fin c) (q : Fin d) :
    multiReduction .maximumf [1] ⟨3, ![a, c, d]⟩ src acc h hφ hacc (ix3 i p q)
      = (Finset.univ : Finset (Fin b)).fold max (Ideal.ofBits φ acc) (fun j => src (ix4 i j p q)) :=
  (Ideal.multiReduction_maximumf_single src acc h hφ hacc (ix3 i p q)).trans
    (congrArg (fun f => (Finset.univ : Finset (Fin b)).fold max (Ideal.ofBits φ acc) f)
      (funext fun j => congrArg src (lift_second h i p q j)))

/-- An iota along the second axis of `[a, b, c, d]` reads, at `(i, j, p, q)`, the number `j`. -/
theorem iota_second_apply {a b c d w : ℕ} (κ : Kind) (h : (⟨4, ![a, b, c, d]⟩ : Shape).Iotas κ w [1]) (i : Fin a) (j : Fin b) (p : Fin c) (q : Fin d) :
    iota κ ⟨4, ![a, b, c, d]⟩ w [1] h (ix4 i j p q) = BitVec.ofNat w j.val :=
  iota_single_apply κ _ w 1 h (ix4 i j p q)

/-- A load through the unit-stride rectangle with offsets `o` and extents `[m0, m1, m2, m3]` reads, at the rectangle's own
    coordinates `(r0, r1, r2, r3)`, the array at `(o 0 + r0, …, o 3 + r3)`. -/
theorem ld_unit4_apply {n0 n1 n2 n3 m0 m1 m2 m3 : ℕ} {Val : EltTy → Type} {e : EltTy} (X : (⟨4, ![n0, n1, n2, n3]⟩ : Shape).Idx → Val e)
    (o0 o1 o2 o3 : ℕ) (inb : ∀ a, (![o0, o1, o2, o3] : Fin 4 → ℕ) a + (![m0, m1, m2, m3] : Fin 4 → ℕ) a ≤ (⟨4, ![n0, n1, n2, n3]⟩ : Shape).size a)
    (r0 : Fin m0) (r1 : Fin m1) (r2 : Fin m2) (r3 : Fin m3) (p0 : Fin n0) (p1 : Fin n1) (p2 : Fin n2) (p3 : Fin n3)
    (h0 : p0.val = o0 + r0.val) (h1 : p1.val = o1 + r1.val) (h2 : p2.val = o2 + r2.val) (h3 : p3.val = o3 + r3.val) :
    View.ld X (Rect.unit (s := ⟨4, ![n0, n1, n2, n3]⟩) ![o0, o1, o2, o3] ![m0, m1, m2, m3] inb) (ix4 r0 r1 r2 r3) = X (ix4 p0 p1 p2 p3) := by
  show X _ = X _
  refine congrArg X (funext fun a => Fin.ext ?_)
  match a with
  | ⟨0, _⟩ =>
    show o0 + 1 * r0.val = p0.val
    omega
  | ⟨1, _⟩ =>
    show o1 + 1 * r1.val = p1.val
    omega
  | ⟨2, _⟩ =>
    show o2 + 1 * r2.val = p2.val
    omega
  | ⟨3, _⟩ =>
    show o3 + 1 * r3.val = p3.val
    omega

/-- An `[a]` vector cast to the column `[a, 1]` reads, at `(i, u)`, the operand at `i`. -/
theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Cert.Lib.Axes4

end
-- ==== Proof.LibAxisLayout.lean ====
/-
  Three-axis layout operations and single-axis reductions read at an index given by coordinates.

  A reduction of an [a, b, c] array along its middle or last axis leaves an [a, c] or [a, b] array; kept as a
  unit axis it is re-laid as [a, 1, c] or [a, b, 1] and broadcast back to [a, b, c]. Read at (i, j, k) each cast
  returns the operand's entry at the coordinates that remain — a unit coordinate is zero, so the row-major
  position is unchanged — and each broadcast reads the unit axis at 0 and the other axes at the result's own
  coordinates. A reduction over one axis, read at the kept coordinates, ranges over the dropped coordinate put
  back in its place.
-/
import Idealize.ShloMosaic.Lib.Pipeline.Value
import Idealize.ShloMosaic.Lib.ValueIdx
import Idealize.ShloMosaic.PureOps.Ideal.Laws

namespace Cert.Lib.AxisLayout

open Idealize.ShloMosaic Idealize.ShloMosaic.ValueIdx

variable {α : Type}

/-- Two indices of a one-axis shape with the same coordinate are equal. -/
theorem ext1 {n0 : ℕ} {f g : (⟨1, ![n0]⟩ : Shape).Idx} (h0 : (f 0).val = (g 0).val) : f = g :=
  funext fun a => Fin.ext (by match a with | ⟨0, _⟩ => exact h0)

/-- Two indices of a two-axis shape with the same coordinates are equal. -/
theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)

/-- Two indices of a three-axis shape with the same coordinates are equal. -/
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array cast to [a, c] reads, at (i, k), the operand at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Dropping the middle axis of [a, b, c]: the kept index (i, k) with coordinate j put back is (i, j, k). -/
theorem lift_abc_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- Dropping the last axis of [a, b, c]: the kept index (i, j) with coordinate k put back is (i, j, k). -/
theorem lift_abc_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Dropping the last axis of [a, b]: the kept index i with coordinate k put back is (i, k). -/
theorem lift_ab_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A sum along the middle axis of [a, b, c], at (i, k), is the sum over j of the entries (i, j, k). -/
theorem sum_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A sum along the last axis of [a, b, c], at (i, j), is the sum over k of the entries (i, j, k). -/
theorem sum_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_abc_last h i j k))

/-- A sum along the last axis of [a, b], at i, is the sum over k of the entries (i, k). -/
theorem sum_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

/-- A maximum along the middle axis of [a, b, c], at (i, k): the fold of max from the start value over the entries (i, j, k). -/
theorem max_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_abc_mid h i k j)))

/-- A maximum along the last axis of [a, b, c], at (i, j): the fold of max from the start value over the entries (i, j, k). -/
theorem max_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_abc_last h i j k)))

end Cert.Lib.AxisLayout
-- ==== Proof.Section.lean ====
import proofs.«121826_j10127532883990_2_alg».proof.Proof.BlockDef
import proofs.«121826_j10127532883990_2_alg».proof.Proof.LibAxes4
import proofs.«121826_j10127532883990_2_alg».proof.Proof.LibAxisLayout

/-!
# One coordinate's share of a block, read at coordinates

For one of the four box coordinates the kernel holds the eight bin logits of every location of the block,
`L : [8, 8, 40, 128]` (batch row, bin, row, lane), the targets `T : [8, 40, 128]` and the mask.  It takes the
maximum and the log-sum-exp over the bin axis, the two bins and weights of the target, the weighted sum of the
logits over the bin axis, and sums the masked per-location losses over rows and lanes.  Here each stage is named and
read at coordinates; the last says that batch row `b` gets `∑ h w, perK (L b · h w) (T b h w) · mask b h w`.
-/

noncomputable section

namespace Cert.Dfl

open Idealize.ShloMosaic Idealize.ShloMosaic.ValueIdx Cert.KernelIdeal Cert.KernelIdeal.Gen
open Cert.Lib.Axes4 Cert.Lib.AxisLayout

variable (L : FVec Ideal S8x8x40x128 .f32) (T : FVec Ideal S8x40x128 .f32) (msk : FVec Ideal S8x40x128 .f32)

/-- The largest bin logit of each location. -/
def sMax : FVec Ideal S8x40x128 .f32 :=
  multiReduction .maximumf [1] S8x40x128 L 0xFF800000#32 reduces_S8x8x40x128_S8x40x128 (.inl rfl) rfl

/-- The same with the bin axis kept as a unit axis. -/
def sMaxK : FVec Ideal S8x1x40x128 .f32 := shapeCast S8x1x40x128 (sMax L) shapeCasts_S8x40x128_S8x1x40x128

/-- `log ∑ exp (logit - max)` of each location, the bin axis kept as a unit axis. -/
def sLse : FVec Ideal S8x1x40x128 .f32 :=
  log (shapeCast S8x1x40x128
    (multiReduction .add [1] S8x40x128 (exp (subf L (broadcastTo S8x8x40x128 (sMaxK L) broadcasts_S8x1x40x128_S8x8x40x128)))
      0x00000000#32 reduces_S8x8x40x128_S8x40x128 (.inl rfl) rfl) shapeCasts_S8x40x128_S8x1x40x128)

/-- The clipped targets. -/
def sClip : FVec Ideal S8x40x128 .f32 :=
  minimumf (broadcast S8x40x128 (Scalar.ofBits .f32 0x40DFFF2E#32 : Ideal .f32))
    (maximumf (broadcast S8x40x128 (Scalar.ofBits .f32 0x00000000#32 : Ideal .f32)) T)

/-- The lower bins. -/
def sLo : IVec S8x40x128 32 := fptosi 32 (floor (sClip T))

/-- The upper bins. -/
def sHi : IVec S8x40x128 32 := minsi (addi (sLo T) (broadcast S8x40x128 1#32)) (broadcast S8x40x128 7#32)

/-- The upper bins' weights. -/
def sWu : FVec Ideal S8x40x128 .f32 := subf (sClip T) (sitofp .f32 (sLo T))

/-- The lower bins' weights. -/
def sWl : FVec Ideal S8x40x128 .f32 := subf (broadcast S8x40x128 (Scalar.ofBits .f32 0x3F800000#32 : Ideal .f32)) (sWu T)

/-- The bin number along the bin axis. -/
def sIota : IVec S8x8x40x128 32 := iota .tc S8x8x40x128 32 [1] iota_S8x8x40x128_d1_w32

/-- An integer per location copied along the bin axis. -/
def sUpI (v : IVec S8x40x128 32) : IVec S8x8x40x128 32 :=
  broadcastTo S8x8x40x128 (shapeCast S8x1x40x128 v shapeCasts_S8x40x128_S8x1x40x128) broadcasts_S8x1x40x128_S8x8x40x128

/-- A number per location copied along the bin axis. -/
def sUpF (v : FVec Ideal S8x40x128 .f32) : FVec Ideal S8x8x40x128 .f32 :=
  broadcastTo S8x8x40x128
    (shapeCast S8x1x40x128 (shapeCast S8x1x40x128 v shapeCasts_S8x40x128_S8x1x40x128) shapeCasts_S8x1x40x128_S8x1x40x128)
    broadcasts_S8x1x40x128_S8x8x40x128

/-- The weight each bin receives. -/
def sBin : FVec Ideal S8x8x40x128 .f32 :=
  addf
    (select (cmpi .eq sIota (sUpI (sLo T))) (sUpF (sWl T)) (broadcast S8x8x40x128 (Scalar.ofBits .f32 0x00000000#32 : Ideal .f32)))
    (select (cmpi .eq sIota (sUpI (sHi T))) (sUpF (sWu T)) (broadcast S8x8x40x128 (Scalar.ofBits .f32 0x00000000#32 : Ideal .f32)))

/-- The per-location loss. -/
def sPer : FVec Ideal S8x40x128 .f32 :=
  subf
    (addf (shapeCast S8x40x128 (sMaxK L) shapeCasts_S8x1x40x128_S8x40x128) (shapeCast S8x40x128 (sLse L) shapeCasts_S8x1x40x128_S8x40x128))
    (multiReduction .add [1] S8x40x128 (mulf L (sBin T)) 0x00000000#32 reduces_S8x8x40x128_S8x40x128 (.inl rfl) rfl)

/-- The masked losses summed over lanes, then rows. -/
def sSum : FVec Ideal S8 .f32 :=
  multiReduction .add [1] S8
    (multiReduction .add [2] S8x40 (mulf (sPer L T) msk) 0x00000000#32 reduces_S8x40x128_S8x40 (.inl rfl) rfl)
    0x00000000#32 reduces_S8x40_S8 (.inl rfl) rfl

/-- The kernel's third coordinate is computed in exactly these stages. -/
theorem pay23_eq : k0_pay23 (F := Ideal) msk L T = sSum L T msk := rfl

variable (b : Fin 8) (h : Fin 40) (w : Fin 128)

theorem sMax_apply : sMax L (ix3 b h w) = mx (fun k => L (ix4 b k h w)) :=
  max_second_apply L _ _ _ _ b h w

theorem sMaxK_apply (u : Fin 1) : sMaxK L (ix4 b u h w) = mx (fun k => L (ix4 b k h w)) :=
  (shapeCast_addMid_apply _ _ b u h w).trans (sMax_apply L b h w)

theorem sLse_apply (u : Fin 1) : sLse L (ix4 b u h w) = lse (fun k => L (ix4 b k h w)) := by
  show Ideal.log (shapeCast S8x1x40x128 _ _ (ix4 b u h w)) = _
  rw [shapeCast_addMid_apply]
  unfold lse se
  refine congrArg Ideal.log ((sum_second_apply _ _ _ _ _ b h w).trans (Finset.sum_congr rfl fun k _ => ?_))
  show Ideal.exp (L (ix4 b k h w) - broadcastTo S8x8x40x128 (sMaxK L) _ (ix4 b k h w)) = _
  rw [broadcastTo_mid_apply, sMaxK_apply]

theorem sLo_apply (i : S8x40x128.Idx) : sLo T i = lo (T i) := rfl
theorem sHi_apply (i : S8x40x128.Idx) : sHi T i = hi (T i) := rfl
theorem sWu_apply (i : S8x40x128.Idx) : sWu T i = wu (T i) := rfl
theorem sWl_apply (i : S8x40x128.Idx) : sWl T i = wl (T i) := rfl

theorem sUpI_apply (v : IVec S8x40x128 32) (k : Fin 8) : sUpI v (ix4 b k h w) = v (ix3 b h w) := by
  unfold sUpI
  rw [broadcastTo_mid_apply, shapeCast_addMid_apply]

theorem sUpF_apply (v : FVec Ideal S8x40x128 .f32) (k : Fin 8) : sUpF v (ix4 b k h w) = v (ix3 b h w) := by
  unfold sUpF
  rw [broadcastTo_mid_apply, shapeCast_self, shapeCast_addMid_apply]

theorem sBin_apply (k : Fin 8) : sBin T (ix4 b k h w) = binw (T (ix3 b h w)) k := by
  show Scalar.select (IntOp.cmpi .eq (sIota (ix4 b k h w)) (sUpI (sLo T) (ix4 b k h w))) (sUpF (sWl T) (ix4 b k h w)) _
      + Scalar.select (IntOp.cmpi .eq (sIota (ix4 b k h w)) (sUpI (sHi T) (ix4 b k h w))) (sUpF (sWu T) (ix4 b k h w)) _ = _
  rw [sUpI_apply, sUpI_apply, sUpF_apply, sUpF_apply, sLo_apply, sHi_apply, sWl_apply, sWu_apply]
  unfold sIota
  rw [iota_second_apply]
  rfl

theorem sPer_apply : sPer L T (ix3 b h w) = perK (fun k => L (ix4 b k h w)) (T (ix3 b h w)) := by
  show (shapeCast S8x40x128 (sMaxK L) _ (ix3 b h w) + shapeCast S8x40x128 (sLse L) _ (ix3 b h w))
      - multiReduction .add [1] S8x40x128 (mulf L (sBin T)) _ _ _ _ (ix3 b h w) = _
  rw [shapeCast_dropMid_apply, shapeCast_dropMid_apply, sMaxK_apply, sLse_apply]
  unfold perK
  refine congrArg (fun z : EReal => ((mx fun k => L (ix4 b k h w)) + lse fun k => L (ix4 b k h w)) - z)
    ((sum_second_apply _ _ _ _ _ b h w).trans (Finset.sum_congr rfl fun k _ => ?_))
  show L (ix4 b k h w) * sBin T (ix4 b k h w) = _
  rw [sBin_apply]

/-- Batch row `b` of one coordinate's share: the masked losses of the row's locations. -/
theorem sSum_apply : sSum L T msk (ix1 b)
    = ∑ h : Fin 40, ∑ w : Fin 128, perK (fun k => L (ix4 b k h w)) (T (ix3 b h w)) * msk (ix3 b h w) := by
  unfold sSum
  refine (sum_row_apply _ _ _ _ _ b).trans (Finset.sum_congr rfl fun h _ => ?_)
  refine (sum_last_apply _ _ _ _ _ b h).trans (Finset.sum_congr rfl fun w _ => ?_)
  show sPer L T (ix3 b h w) * msk (ix3 b h w) = _
  rw [sPer_apply]

end Cert.Dfl

end
-- ==== Proof.LibConcat2.lean ====
/-
  Two matrices laid side by side, or one on top of the other, read at coordinates.

  A concatenation of two pieces locates the coordinate on the joined axis among the pieces' extents: below the first
  extent it reads the first piece at the same coordinates, from the first extent on it reads the second piece with the
  first extent subtracted on that axis. For matrices joined along their columns (`[a, b]` and `[a, c]` into `[a, n]`) or
  along their rows (`[b, d]` and `[c, d]` into `[n, d]`) these are the four readings below, each at an index written by
  its two coordinates; the caller names the piece's coordinate and gives the one equation that relates it to the joined one.
-/
import Idealize.ShloMosaic.Lib.Pipeline.Value
import Idealize.ShloMosaic.Lib.ValueIdx

namespace Cert.Lib.Concat2

open Idealize.ShloMosaic Idealize.ShloMosaic.ValueIdx

variable {α : Type}

/-- Side by side, `[a, b]` then `[a, c]`: at a column `q` below `b` the joined matrix reads the left piece at `(p, q)`. -/
theorem cols_left {a b c n : ℕ} (x : (⟨2, ![a, b]⟩ : Shape).Idx → α) (y : (⟨2, ![a, c]⟩ : Shape).Idx → α)
    (h : Shape.Concatenates [⟨2, ![a, b]⟩, ⟨2, ![a, c]⟩] ⟨2, ![a, n]⟩ 1) (p : Fin a) (q : Fin n) (q' : Fin b)
    (hq : q'.val = q.val) :
    concatenate ⟨2, ![a, n]⟩ 1 [⟨⟨2, ![a, b]⟩, x⟩, ⟨⟨2, ![a, c]⟩, y⟩] h (ix2 p q) = x (ix2 p q') :=
  concatenate_pair_apply_left (t := ⟨2, ![a, n]⟩) (s₁ := ⟨2, ![a, b]⟩) (s₂ := ⟨2, ![a, c]⟩) 1 x y h (ix2 p q) rfl (ix2 p q')
    (fun ax => by
      match ax with
      | ⟨0, _⟩ => rfl
      | ⟨1, _⟩ => exact hq)

/-- Side by side, `[a, b]` then `[a, c]`: at a column `q = q' + b` the joined matrix reads the right piece at `(p, q')`. -/
theorem cols_right {a b c n : ℕ} (x : (⟨2, ![a, b]⟩ : Shape).Idx → α) (y : (⟨2, ![a, c]⟩ : Shape).Idx → α)
    (h : Shape.Concatenates [⟨2, ![a, b]⟩, ⟨2, ![a, c]⟩] ⟨2, ![a, n]⟩ 1) (p : Fin a) (q : Fin n) (q' : Fin c)
    (hq : q'.val + b = q.val) :
    concatenate ⟨2, ![a, n]⟩ 1 [⟨⟨2, ![a, b]⟩, x⟩, ⟨⟨2, ![a, c]⟩, y⟩] h (ix2 p q) = y (ix2 p q') :=
  concatenate_pair_apply_right (t := ⟨2, ![a, n]⟩) (s₁ := ⟨2, ![a, b]⟩) (s₂ := ⟨2, ![a, c]⟩) 1 x y h (ix2 p q) rfl rfl (ix2 p q')
    (fun ax hax => by
      match ax with
      | ⟨0, _⟩ => rfl
      | ⟨1, _⟩ => exact absurd rfl hax)
    hq

/-- One on top of the other, `[b, d]` then `[c, d]`: at a row `p` below `b` the joined matrix reads the upper piece at `(p, q)`. -/
theorem rows_top {b c d n : ℕ} (x : (⟨2, ![b, d]⟩ : Shape).Idx → α) (y : (⟨2, ![c, d]⟩ : Shape).Idx → α)
    (h : Shape.Concatenates [⟨2, ![b, d]⟩, ⟨2, ![c, d]⟩] ⟨2, ![n, d]⟩ 0) (p : Fin n) (q : Fin d) (p' : Fin b)
    (hp : p'.val = p.val) :
    concatenate ⟨2, ![n, d]⟩ 0 [⟨⟨2, ![b, d]⟩, x⟩, ⟨⟨2, ![c, d]⟩, y⟩] h (ix2 p q) = x (ix2 p' q) :=
  concatenate_pair_apply_left (t := ⟨2, ![n, d]⟩) (s₁ := ⟨2, ![b, d]⟩) (s₂ := ⟨2, ![c, d]⟩) 0 x y h (ix2 p q) rfl (ix2 p' q)
    (fun ax => by
      match ax with
      | ⟨0, _⟩ => exact hp
      | ⟨1, _⟩ => rfl)

/-- One on top of the other, `[b, d]` then `[c, d]`: at a row `p = p' + b` the joined matrix reads the lower piece at `(p', q)`. -/
theorem rows_bottom {b c d n : ℕ} (x : (⟨2, ![b, d]⟩ : Shape).Idx → α) (y : (⟨2, ![c, d]⟩ : Shape).Idx → α)
    (h : Shape.Concatenates [⟨2, ![b, d]⟩, ⟨2, ![c, d]⟩] ⟨2, ![n, d]⟩ 0) (p : Fin n) (q : Fin d) (p' : Fin c)
    (hp : p'.val + b = p.val) :
    concatenate ⟨2, ![n, d]⟩ 0 [⟨⟨2, ![b, d]⟩, x⟩, ⟨⟨2, ![c, d]⟩, y⟩] h (ix2 p q) = y (ix2 p' q) :=
  concatenate_pair_apply_right (t := ⟨2, ![n, d]⟩) (s₁ := ⟨2, ![b, d]⟩) (s₂ := ⟨2, ![c, d]⟩) 0 x y h (ix2 p q) rfl rfl (ix2 p' q)
    (fun ax hax => by
      match ax with
      | ⟨0, _⟩ => exact absurd rfl hax
      | ⟨1, _⟩ => rfl)
    hp

end Cert.Lib.Concat2
-- ==== Proof.Block.lean ====
import proofs.«121826_j10127532883990_2_alg».proof.Proof.Section
import proofs.«121826_j10127532883990_2_alg».proof.Proof.LibConcat2

/-!
# What a grid point leaves in its output block

The kernel computes each of the four coordinates' shares in the stages of `Section.lean`, adds them up, and adds
the pair (losses, positives) of each batch row to the output block it loaded (zeroed first at the first point of a
row of the grid).
-/

set_option maxRecDepth 16384

noncomputable section

namespace Cert.Dfl

open Idealize.ShloMosaic Idealize.ShloMosaic.ValueIdx Cert.KernelIdeal Cert.KernelIdeal.Gen Idealize.ShloMosaic.Tactic
open Cert.Lib.Axes4 Cert.Lib.AxisLayout

/-! ## The kernel's four coordinates are the four shares -/

variable (v4 : FVec Ideal S8x40x128 .f32) (v6 acc : FVec Ideal S8 .f32) (l : Vec Ideal S8x8x40x128 .f32) (t : Vec Ideal S8x1x40x128 .f32)

theorem pay14_eq : k0_pay14 (F := Ideal) v4 acc (k0_pay6 l) (k0_pay7 l) (k0_pay8 l) (k0_pay10 t) (k0_pay11 t) (k0_pay12 t) (k0_pay13 t)
    = addf acc (sSum (k0_pay6 l) (k0_pay22 t) v4) := rfl

theorem pay20_eq : k0_pay20 (F := Ideal) v4 acc (k0_pay15 l) (k0_pay16 l) (k0_pay17 l) (k0_pay18 t) k0_pay19
    = addf acc (sSum (k0_pay6 l) (k0_pay22 t) v4) := rfl

theorem pay23_eq' : k0_pay23 (F := Ideal) v4 (k0_pay21 l) (k0_pay22 t) = sSum (k0_pay6 l) (k0_pay22 t) v4 := rfl

theorem pay1_eq (v227 : Vec Ideal S8x2 .f32) :
    k0_pay1 (F := Ideal) v4 v6 acc (k0_pay25 l) (k0_pay26 l) (k0_pay27 l) (k0_pay31 t) (k0_pay32 t) (k0_pay33 t) k0_pay34 v227
    = addf (shapeCast S8x2 v227 shapeCasts_S8x2_S8x2)
        (concatenate S8x2 1 [⟨S8x1, shapeCast S8x1 (addf acc (sSum (k0_pay6 l) (k0_pay22 t) v4)) shapeCasts_S8_S8x1⟩,
          ⟨S8x1, shapeCast S8x1 v6 shapeCasts_S8_S8x1⟩] concatenates_S8x1_S8x1_S8x2_d1) := rfl

/-! ## The loaded pieces read at coordinates -/

variable (x0 : Vec Ideal S8x32x40x128 .f32) (x1 : Vec Ideal S8x4x40x128 .f32) (x2 : Vec Ideal S8x40x128 .f32)

/-- Bin `k` of coordinate `c`'s logits is channel `c · 8 + k` of the block. -/
theorem logits_at (o : ℕ) (inb : ∀ a, (![0, o, 0, 0] : Fin 4 → ℕ) a + S8x8x40x128.size a ≤ S8x32x40x128.size a) (c : Fin 4)
    (ho : o = c.val * 8) (b : Fin 8) (k : Fin 8) (h : Fin 40) (w : Fin 128) :
    k0_pay6 (F := Ideal) (View.ld x0 (Rect.unit (s := S8x32x40x128) ![0, o, 0, 0] S8x8x40x128.size inb)) (ix4 b k h w)
      = x0 (ix4 b (chan c k) h w) := by
  unfold k0_pay6
  rw [shapeCast_self]
  exact ld_unit4_apply x0 0 o 0 0 inb b k h w b (chan c k) h w (by omega) (by show c.val * 8 + k.val = o + k.val; omega) (by omega) (by omega)

/-- Coordinate `c`'s targets are slice `c` of the block. -/
theorem targets_at (o : ℕ) (inb : ∀ a, (![0, o, 0, 0] : Fin 4 → ℕ) a + S8x1x40x128.size a ≤ S8x4x40x128.size a) (c : Fin 4)
    (ho : o = c.val) (b : Fin 8) (h : Fin 40) (w : Fin 128) :
    k0_pay22 (F := Ideal) (View.ld x1 (Rect.unit (s := S8x4x40x128) ![0, o, 0, 0] S8x1x40x128.size inb)) (ix3 b h w)
      = x1 (ix4 b c h w) := by
  unfold k0_pay22
  rw [shapeCast_dropMid_apply]
  exact ld_unit4_apply x1 0 o 0 0 inb b (0 : Fin 1) h w b c h w (by omega) (by show c.val = o + 0; omega) (by omega) (by omega)

theorem mask_at (i : S8x40x128.Idx) : k0_pay3 (F := Ideal) x2 i = x2 i := by
  unfold k0_pay3
  rw [shapeCast_self]

/-- One coordinate's share, in terms of the block's contents. -/
theorem share_eq (o : ℕ) (inb0 : ∀ a, (![0, o, 0, 0] : Fin 4 → ℕ) a + S8x8x40x128.size a ≤ S8x32x40x128.size a)
    (o' : ℕ) (inb1 : ∀ a, (![0, o', 0, 0] : Fin 4 → ℕ) a + S8x1x40x128.size a ≤ S8x4x40x128.size a)
    (c : Fin 4) (ho : o = c.val * 8) (ho' : o' = c.val) (b : Fin 8) :
    sSum (k0_pay6 (F := Ideal) (View.ld x0 (Rect.unit (s := S8x32x40x128) ![0, o, 0, 0] S8x8x40x128.size inb0)))
        (k0_pay22 (F := Ideal) (View.ld x1 (Rect.unit (s := S8x4x40x128) ![0, o', 0, 0] S8x1x40x128.size inb1))) (k0_pay3 (F := Ideal) x2) (ix1 b)
      = ∑ h : Fin 40, ∑ w : Fin 128, perK (fun k => x0 (ix4 b (chan c k) h w)) (x1 (ix4 b c h w)) * x2 (ix3 b h w) := by
  rw [sSum_apply]
  refine Finset.sum_congr rfl fun h _ => Finset.sum_congr rfl fun w _ => ?_
  rw [targets_at x1 o' inb1 c ho', mask_at]
  refine congrArg (fun f => perK f (x1 (ix4 b c h w)) * x2 (ix3 b h w)) (funext fun k => ?_)
  exact logits_at x0 o inb0 c ho b k h w

/-- The block's positives per batch row. -/
theorem pos_eq (b : Fin 8) : k0_pay4 (F := Ideal) x2 (ix1 b) = blkPos x2 b := by
  unfold k0_pay4 blkPos
  refine (sum_row_apply _ _ _ _ _ b).trans (Finset.sum_congr rfl fun h _ => ?_)
  refine (sum_last_apply _ _ _ _ _ b h).trans (Finset.sum_congr rfl fun w _ => ?_)
  exact mask_at x2 _

/-- What the kernel adds to the output block it loaded, read at `(b, q)`. -/
theorem added_eq (b : Fin 8) (q : Fin 2) :
    concatenate S8x2 1
        [⟨S8x1, shapeCast S8x1
            (addf
              (k0_pay24 (F := Ideal)
                (addf
                  (addf k0_pay5
                    (sSum (k0_pay6 (View.ld x0 (Rect.unit (s := S8x32x40x128) ![0, 0, 0, 0] S8x8x40x128.size inb_S8x32x40x128_S8x8x40x128_0_0_0_0)))
                      (k0_pay22 (View.ld x1 (Rect.unit (s := S8x4x40x128) ![0, 0, 0, 0] S8x1x40x128.size inb_S8x4x40x128_S8x1x40x128_0_0_0_0))) (k0_pay3 x2)))
                  (sSum (k0_pay6 (View.ld x0 (Rect.unit (s := S8x32x40x128) ![0, 8, 0, 0] S8x8x40x128.size inb_S8x32x40x128_S8x8x40x128_0_8_0_0)))
                    (k0_pay22 (View.ld x1 (Rect.unit (s := S8x4x40x128) ![0, 1, 0, 0] S8x1x40x128.size inb_S8x4x40x128_S8x1x40x128_0_1_0_0))) (k0_pay3 x2)))
                (sSum (k0_pay6 (View.ld x0 (Rect.unit (s := S8x32x40x128) ![0, 16, 0, 0] S8x8x40x128.size inb_S8x32x40x128_S8x8x40x128_0_16_0_0)))
                  (k0_pay22 (View.ld x1 (Rect.unit (s := S8x4x40x128) ![0, 2, 0, 0] S8x1x40x128.size inb_S8x4x40x128_S8x1x40x128_0_2_0_0))) (k0_pay3 x2)))
              (sSum (k0_pay6 (View.ld x0 (Rect.unit (s := S8x32x40x128) ![0, 24, 0, 0] S8x8x40x128.size inb_S8x32x40x128_S8x8x40x128_0_24_0_0)))
                (k0_pay22 (View.ld x1 (Rect.unit (s := S8x4x40x128) ![0, 3, 0, 0] S8x1x40x128.size inb_S8x4x40x128_S8x1x40x128_0_3_0_0))) (k0_pay3 x2)))
            shapeCasts_S8_S8x1⟩,
          ⟨S8x1, shapeCast S8x1 (k0_pay4 (F := Ideal) x2) shapeCasts_S8_S8x1⟩] concatenates_S8x1_S8x1_S8x2_d1 (ix2 b q)
      = blk x0 x1 x2 (ix2 b q) := by
  match q with
  | ⟨0, hq0⟩ =>
    refine (Cert.Lib.Concat2.cols_left _ _ concatenates_S8x1_S8x1_S8x2_d1 b ⟨0, hq0⟩ (0 : Fin 1) rfl).trans ?_
    rw [shapeCast_col_apply]
    show (((k0_pay5 (F := Ideal) (ix1 b) + sSum _ _ _ (ix1 b)) + sSum _ _ _ (ix1 b)) + sSum _ _ _ (ix1 b)) + sSum _ _ _ (ix1 b)
      = blkTot x0 x1 x2 b
    rw [share_eq x0 x1 x2 0 _ 0 _ 0 rfl rfl, share_eq x0 x1 x2 8 _ 1 _ 1 rfl rfl, share_eq x0 x1 x2 16 _ 2 _ 2 rfl rfl,
      share_eq x0 x1 x2 24 _ 3 _ 3 rfl rfl]
    unfold blkTot
    rw [Fin.sum_univ_four]
    show (((Ideal.ofBits .f32 0x00000000#32 + _) + _) + _) + _ = _
    rw [Ideal.ofBits_zero_f32, zero_add]
  | ⟨1, hq1⟩ =>
    refine (Cert.Lib.Concat2.cols_right _ _ concatenates_S8x1_S8x1_S8x2_d1 b ⟨1, hq1⟩ (0 : Fin 1) rfl).trans ?_
    rw [shapeCast_col_apply, pos_eq]
    rfl

/-! ## The two cases of a grid point -/

theorem zero_off2 : (![0, 0] : Fin 2 → ℕ) = fun _ => 0 := by funext a; fin_cases a <;> rfl
theorem zero_off3 : (![0, 0, 0] : Fin 3 → ℕ) = fun _ => 0 := by funext a; fin_cases a <;> rfl

/-- At every point but the first of a row of the grid the output block ends at what it held plus what the point adds. -/
theorem out_next (c : Dev nD) (i : grid0.Coords) (arg2 : Memref sig .tc .vmem S8x32x40x128 .f32) (harg2 : arg2.IsWhole) (arg3 : Memref sig .tc .vmem S8x4x40x128 .f32) (harg3 : arg3.IsWhole) (arg4 : Memref sig .tc .vmem S8x40x128 .f32) (harg4 : arg4.IsWhole) (arg5 : Memref sig .tc .vmem S8x2 .f32) (harg5 : arg5.IsWhole) (hc0 : ¬cond0_0 i)
    (x0 : Vec Ideal S8x32x40x128 .f32) (x1 : Vec Ideal S8x4x40x128 .f32) (x2 : Vec Ideal S8x40x128 .f32) (xo3 : Vec Ideal S8x2 .f32) :
    out0_B_3 (F := Ideal) c i arg2 harg2 arg3 harg3 arg4 harg4 arg5 harg5 hc0 x0 x1 x2 xo3 = fun y => xo3 y + blk x0 x1 x2 y := by
  unfold out0_B_3
  rw [View.read_writes_eq_canon _ _ _ (cover0_B_3 c i arg2 harg2 arg3 harg3 arg4 harg4 arg5 harg5 hc0 x0 x1 x2 xo3)]
  unfold kernelRun0_B
  dsimp only
  rw [View.canon_unit_zero zero_off2]
  sl_unfold_words
  simp only [View.readAt_eq_ld, harg2.read_unread, harg3.read_unread, harg4.read_unread, harg5.read_unread]
  rw [View.ld_unit_zero (S := S8x40x128) zero_off3, View.ld_unit_zero (S := S8x2) zero_off2]
  rw [pay1_eq, pay20_eq, pay14_eq, pay23_eq']
  funext y
  obtain ⟨b, q, rfl⟩ : ∃ (b : Fin 8) (q : Fin 2), y = ix2 b q := ⟨y 0, y 1, eq_ix2 y⟩
  exact congrArg₂ (fun u v : EReal => u + v) (congrFun (shapeCast_self xo3 shapeCasts_S8x2_S8x2) (ix2 b q)) (added_eq x0 x1 x2 b q)

/-- At the first point of a row of the grid the output block is zeroed first, so it ends at what the point adds. -/
theorem out_first (c : Dev nD) (i : grid0.Coords) (arg2 : Memref sig .tc .vmem S8x32x40x128 .f32) (harg2 : arg2.IsWhole) (arg3 : Memref sig .tc .vmem S8x4x40x128 .f32) (harg3 : arg3.IsWhole) (arg4 : Memref sig .tc .vmem S8x40x128 .f32) (harg4 : arg4.IsWhole) (arg5 : Memref sig .tc .vmem S8x2 .f32) (harg5 : arg5.IsWhole) (hc0 : cond0_0 i)
    (x0 : Vec Ideal S8x32x40x128 .f32) (x1 : Vec Ideal S8x4x40x128 .f32) (x2 : Vec Ideal S8x40x128 .f32) :
    out0_A_3 (F := Ideal) c i arg2 harg2 arg3 harg3 arg4 harg4 arg5 harg5 hc0 x0 x1 x2 = blk x0 x1 x2 := by
  unfold out0_A_3
  rw [View.read_writes_eq_canon _ _ _ (cover0_A_3 c i arg2 harg2 arg3 harg3 arg4 harg4 arg5 harg5 hc0 x0 x1 x2)]
  unfold kernelRun0_A
  dsimp only
  rw [View.canon_cons_unit_zero zero_off2]
  sl_unfold_words
  simp only [View.readAt_eq_ld, harg2.read_unread, harg3.read_unread, harg4.read_unread, harg5.read_unread]
  rw [View.ld_unit_zero (S := S8x40x128) zero_off3, View.readCov_unit_zero _ zero_off2]
  rw [pay1_eq, pay20_eq, pay14_eq, pay23_eq']
  funext y
  obtain ⟨b, q, rfl⟩ : ∃ (b : Fin 8) (q : Fin 2), y = ix2 b q := ⟨y 0, y 1, eq_ix2 y⟩
  refine (congrArg₂ (fun u v : EReal => u + v) (congrFun (shapeCast_self (k0_pay2 (F := Ideal)) shapeCasts_S8x2_S8x2) (ix2 b q))
    (added_eq x0 x1 x2 b q)).trans ?_
  show Ideal.ofBits .f32 0x00000000#32 + _ = _
  rw [Ideal.ofBits_zero_f32, zero_add]

end Cert.Dfl

end
-- ==== Proof.KernAcc.lean ====
import proofs.«121826_j10127532883990_2_alg».proof.Proof.Block

/-!
# The output block over a row of the grid

The grid is `4 × 5`; point `n` has coordinates `(n / 5, n % 5)`.  At the first point of a row (`n % 5 = 0`) the
`[8, 2]` output block is zeroed and then the point's contribution is added; at the other points the contribution is
added to what the point before left.  So after point `n` the block holds the sum of the contributions of the points
`n - n % 5, …, n` of its row.
-/

noncomputable section

namespace Cert.Dfl.Kern

open Idealize.ShloMosaic Idealize.ShloMosaic.ValueIdx Cert.KernelIdeal Cert.KernelIdeal.Gen

variable (m : (ℓ : Loc nD τ sig) → Buf (Elt Ideal) ℓ)

/-- What grid point `n` adds to its output block (zero past the grid). -/
def addend (c : Dev nD) (n : ℕ) : S8x2.Idx → EReal :=
  if h : n < cfg0.N then
    blk (iblk (F := Ideal) m c 0 ⟨n, h⟩) (iblk (F := Ideal) m c 1 ⟨n, h⟩) (iblk (F := Ideal) m c 2 ⟨n, h⟩)
  else fun _ => 0

theorem addend_of_lt (c : Dev nD) (n : ℕ) (h : n < cfg0.N) :
    addend m c n
      = blk (iblk (F := Ideal) m c 0 ⟨n, h⟩) (iblk (F := Ideal) m c 1 ⟨n, h⟩) (iblk (F := Ideal) m c 2 ⟨n, h⟩) :=
  dif_pos h

/-- After point `n` the output block holds the contributions of the points of its row up to `n`, summed. -/
theorem outsAt_eq (c : Dev nD) : ∀ (n : ℕ) (h : n < cfg0.N) (y : S8x2.Idx),
    outsAt0 (F := Ideal) m c n h y = ∑ s ∈ Finset.range (n % 5 + 1), addend m c (n - n % 5 + s) y
  | 0, h, y => by
    refine (congrFun (outsAt0_A (F := Ideal) m c ⟨0, h⟩ rfl) y).trans ?_
    refine (congrFun (out_first c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl)
      (iblk (F := Ideal) m c 0 ⟨0, h⟩) (iblk (F := Ideal) m c 1 ⟨0, h⟩) (iblk (F := Ideal) m c 2 ⟨0, h⟩)) y).trans ?_
    rw [show (0 : ℕ) % 5 + 1 = 1 from rfl, Finset.sum_range_one]
    exact (congrFun (addend_of_lt m c 0 h) y).symm
  | n + 1, h, y => by
    by_cases h0 : (n + 1) % 5 = 0
    · refine (congrFun (outsAt0_A (F := Ideal) m c ⟨n + 1, h⟩ h0) y).trans ?_
      refine (congrFun (out_first c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) (ms0_3 ⟨n + 1, h⟩)
        (hs0_3 ⟨n + 1, h⟩) ((hcond0_0 ⟨n + 1, h⟩).mpr h0)
        (iblk (F := Ideal) m c 0 ⟨n + 1, h⟩) (iblk (F := Ideal) m c 1 ⟨n + 1, h⟩) (iblk (F := Ideal) m c 2 ⟨n + 1, h⟩)) y).trans ?_
      rw [h0, Nat.zero_add, Finset.sum_range_one]
      exact (congrFun (addend_of_lt m c (n + 1) h) y).symm
    · refine (congrFun (outsAt0_B (F := Ideal) m c ⟨n + 1, h⟩ h0) y).trans ?_
      refine (congrFun (out_next c (grid0.coords ⟨n + 1, h⟩) (ms0_0 ⟨n + 1, h⟩) (hs0_0 ⟨n + 1, h⟩)
        (ms0_1 ⟨n + 1, h⟩) (hs0_1 ⟨n + 1, h⟩) (ms0_2 ⟨n + 1, h⟩) (hs0_2 ⟨n + 1, h⟩) (ms0_3 ⟨n + 1, h⟩)
        (hs0_3 ⟨n + 1, h⟩) (fun hc => h0 ((hcond0_0 ⟨n + 1, h⟩).mp hc))
        (iblk (F := Ideal) m c 0 ⟨n + 1, h⟩) (iblk (F := Ideal) m c 1 ⟨n + 1, h⟩) (iblk (F := Ideal) m c 2 ⟨n + 1, h⟩)
        (outsAt0 (F := Ideal) m c n (Nat.lt_of_succ_lt h))) y).trans ?_
      show outsAt0 (F := Ideal) m c n (Nat.lt_of_succ_lt h) y + _ = _
      rw [outsAt_eq c n (Nat.lt_of_succ_lt h) y]
      have e1 : (n + 1) % 5 = n % 5 + 1 := by omega
      have e2 : n + 1 - (n % 5 + 1) = n - n % 5 := by omega
      have e3 : n - n % 5 + (n % 5 + 1) = n + 1 := by omega
      rw [e1, e2, Finset.sum_range_succ _ (n % 5 + 1), e3]
      exact congrArg _ (congrFun (addend_of_lt m c (n + 1) h) y).symm

end Cert.Dfl.Kern

end
-- ==== Proof.KernOut.lean ====
import proofs.«121826_j10127532883990_2_alg».proof.Proof.KernAcc
import Idealize.ShloMosaic.Lib.Pipeline.Value

/-!
# The output array

The `[32, 2]` output array is cut into four blocks of eight rows; block `r` is the output block of grid row `r`,
written back once, after that row's last point.  So row `8r + b'` of the array ends holding row `b'` of the sum
of the contributions of the five points of grid row `r`.
-/

noncomputable section

namespace Cert.Dfl.Kern

open Idealize.ShloMosaic Idealize.ShloMosaic.TcCoe Idealize.ShloMosaic.ValueIdx Cert.KernelIdeal Cert.KernelIdeal.Gen
open Idealize.ShloMosaic.Pipeline (Dat)

variable (m : (ℓ : Loc nD τ sig) → Buf (Elt Ideal) ℓ)

/-- Entry `(b', q)` of the sum of the contributions of the five points `5r, …, 5r + 4` of grid row `r`. -/
def rowSum (c : Dev nD) (r : ℕ) (b' : Fin 8) (q : Fin 2) : EReal :=
  ∑ s ∈ Finset.range 5, addend m c (5 * r + s) (ix2 b' q)

/-- The output array: row `i₀ = 8r + b'` holds row `b'` of grid row `r`'s sum. -/
def outArr (c : Dev nD) : S32x2.Idx → EReal := fun i =>
  rowSum m c ((i 0).val / 8) ⟨(i 0).val % 8, Nat.mod_lt _ (by norm_num)⟩ (i 1)

theorem outArr_apply (c : Dev nD) (i : S32x2.Idx) (r : ℕ) (b' : Fin 8) (q : Fin 2)
    (h0 : (i 0).val = 8 * r + b'.val) (h1 : i 1 = q) : outArr m c i = rowSum m c r b' q := by
  have hb := b'.isLt
  unfold outArr
  have e1 : (i 0).val / 8 = r := by omega
  have e2 : (⟨(i 0).val % 8, Nat.mod_lt _ (by norm_num)⟩ : Fin 8) = b' := Fin.ext (by show (i 0).val % 8 = b'.val; omega)
  rw [e1, e2, h1]

theorem index3 : ∀ t : Fin cfg0.N, win0_3.index t 0 = t.val / 5 ∧ win0_3.index t 1 = 0 :=
  (by decide +kernel : ∀ t : Fin grid0.N, win0_3.index t 0 = t.val / 5 ∧ win0_3.index t 1 = 0)

/-- What a write-back writes is the block of `outArr` it covers. -/
theorem flushed_eq (c : Dev nD) (t : Fin cfg0.N) (hf : (cfg0.win 3).flush t = true) :
    (dats (F := Ideal) m 0 c).flushed 3 t = ((cfg0.win 3).blk t).view.read (Elt Ideal) (outArr m c) := by
  have h4 : t.val % 5 = 4 := (flush0_3 t).mp hf
  obtain ⟨i0, i1⟩ := index3 t
  show (cfg0.win 3).cut (grid0.coords t) ((dats (F := Ideal) m 0 c).after 3 t) = _
  rw [after0_3]
  funext y
  obtain ⟨b', q, rfl⟩ : ∃ (b' : Fin 8) (q : Fin 2), y = ix2 b' q := ⟨y 0, y 1, eq_ix2 y⟩
  rw [View.read_apply]
  show outsAt0 (F := Ideal) m c t.val t.isLt (ix2 b' q) = outArr m c (((cfg0.win 3).blk t).view.emb (ix2 b' q))
  rw [outsAt_eq m c t.val t.isLt (ix2 b' q),
    outArr_apply m c _ (t.val / 5) b' q
      (by show win0_3.index t 0 * 8 + 1 * b'.val = _; rw [i0]; omega)
      (Fin.ext (by show win0_3.index t 1 * 2 + 1 * q.val = q.val; rw [i1]; omega))]
  unfold rowSum
  have e1 : t.val % 5 + 1 = 5 := by omega
  have e2 : t.val - t.val % 5 = 5 * (t.val / 5) := by omega
  rw [e1, e2]

/-- Every row of the array is under the block some write-back writes. -/
theorem cover (c : Dev nD) (i : S32x2.Idx) :
    ∃ t : Fin cfg0.N, (cfg0.win 3).flush t = true ∧ i ∈ ((cfg0.win 3).blk t).view.set := by
  have hN : cfg0.N = 20 := N_0
  have h0 : (i 0).val < 32 := (i 0).isLt
  have h1 : (i 1).val < 2 := (i 1).isLt
  have ht : 5 * ((i 0).val / 8) + 4 < cfg0.N := by rw [hN]; omega
  refine ⟨⟨5 * ((i 0).val / 8) + 4, ht⟩, (flush0_3 _).mpr (by show (5 * ((i 0).val / 8) + 4) % 5 = 4; omega), ?_⟩
  obtain ⟨i0, i1⟩ := index3 ⟨5 * ((i 0).val / 8) + 4, ht⟩
  show i ∈ ((View.whole main_v5).slice (win0_3.rect ⟨5 * ((i 0).val / 8) + 4, ht⟩)).set
  rw [View.set_slice_whole, Rect.mem_set_unit]
  intro a
  match a with
  | ⟨0, _⟩ =>
    show win0_3.index ⟨5 * ((i 0).val / 8) + 4, ht⟩ 0 * 8 ≤ (i 0 : Nat)
      ∧ (i 0 : Nat) < win0_3.index ⟨5 * ((i 0).val / 8) + 4, ht⟩ 0 * 8 + 8
    rw [i0]; show (5 * ((i 0).val / 8) + 4) / 5 * 8 ≤ (i 0).val ∧ (i 0).val < (5 * ((i 0).val / 8) + 4) / 5 * 8 + 8
    omega
  | ⟨1, _⟩ =>
    show win0_3.index ⟨5 * ((i 0).val / 8) + 4, ht⟩ 1 * 2 ≤ (i 1 : Nat)
      ∧ (i 1 : Nat) < win0_3.index ⟨5 * ((i 0).val / 8) + 4, ht⟩ 1 * 2 + 2
    rw [i1]; omega

/-- So the output array ends at `outArr`. -/
theorem final_out (c : Dev nD) : (dats (F := Ideal) m 0 c).arrAt 3 cfg0.N = outArr m c :=
  (dats (F := Ideal) m 0 c).arrAt_eq_of_cover 3 (outArr m c) (flushed_eq m c) (cover c)

end Cert.Dfl.Kern

end
-- ==== Proof.KernBlocks.lean ====
import proofs.«121826_j10127532883990_2_alg».proof.Proof.Block
import proofs.«121826_j10127532883990_2_alg».proof.Proof.Gen.KernelIdeal.Frame
import Idealize.ShloMosaic.Lib.Pipeline.Value
import Idealize.ShloMosaic.Lib.StableHlo.Run

/-!
# The input blocks, entry by entry

Before the grid runs, the logits `[32, 32, 160, 160]` are re-read as `[32, 32, 200, 128]` (the same row-major
order: the 25600 locations of a channel as 200 rows of 128 lanes), the targets `[32, 25600, 4]` are transposed to
`[32, 4, 25600]` and re-read as `[32, 4, 200, 128]`, and the mask bits become the numbers 0 and 1, re-read as
`[32, 200, 128]`.  Grid point `t = (t / 5, t % 5)` sees batch rows `8·(t/5) … 8·(t/5) + 7` and rows
`40·(t%5) … 40·(t%5) + 39` of these.  So entry `(b', ·, h, w)` of its blocks is the entry of the argument arrays at
batch row `8·(t/5) + b'` and location `(40·(t%5) + h)·128 + w`.
-/

noncomputable section

namespace Cert.Dfl.Kern

open Idealize.ShloMosaic Idealize.ShloMosaic.TcCoe Idealize.ShloMosaic.ValueIdx Cert.KernelIdeal Cert.KernelIdeal.Gen

variable (m : (ℓ : Loc nD τ sig) → Buf (Elt Ideal) ℓ)

/-! ## The three arrays the grid reads, from the arguments -/

theorem V_v0 (c : Dev nD) : (V (F := Ideal) m c main_v0 : S32x32x200x128.Idx → EReal)
    = shapeCast S32x32x200x128 (m ((c : Thread nD τ).loc main_arg0) : S32x32x160x160.Idx → EReal)
        shapeCasts_S32x32x160x160_S32x32x200x128 := by
  show StableHlo.after hostOps0 (fun b => m (c, b)) (Proc.devRef .tc main_v0) = _
  after_results
  rfl

theorem V_v2 (c : Dev nD) : (V (F := Ideal) m c main_v2 : S32x4x200x128.Idx → EReal)
    = shapeCast S32x4x200x128
        (transpose S32x4x25600 [0, 2, 1] (m ((c : Thread nD τ).loc main_arg1) : S32x25600x4.Idx → EReal)
          transposes_S32x25600x4_S32x4x25600_0_2_1)
        shapeCasts_S32x4x25600_S32x4x200x128 := by
  show StableHlo.after hostOps0 (fun b => m (c, b)) (Proc.devRef .tc main_v2) = _
  after_results
  rfl

theorem V_v4 (c : Dev nD) : (V (F := Ideal) m c main_v4 : S32x200x128.Idx → EReal)
    = shapeCast S32x200x128
        (uitofp (F := Ideal) .f32 (m ((c : Thread nD τ).loc main_arg2) : S32x25600.Idx → BitVec 1))
        shapeCasts_S32x25600_S32x200x128 := by
  show StableHlo.after hostOps0 (fun b => m (c, b)) (Proc.devRef .tc main_v4) = _
  after_results
  rfl

/-! ## Reading the re-shaped arrays at an entry -/

/-- The logits re-read as `[32, 32, 200, 128]`: entry `(b, ch, h, w)` is location `h·128 + w` of channel `ch`. -/
theorem logits_apply (X : S32x32x160x160.Idx → EReal) (b : Fin 32) (ch : Fin 32) (h : Fin 200) (w : Fin 128)
    (r : Fin 160) (l : Fin 160) (hr : r.val = (h.val * 128 + w.val) / 160) (hl : l.val = (h.val * 128 + w.val) % 160) :
    shapeCast S32x32x200x128 X shapeCasts_S32x32x160x160_S32x32x200x128 (ix4 b ch h w) = X (ix4 b ch r l) := by
  refine shapeCast_apply X _ (ix4 b ch h w) (ix4 b ch r l) ?_
  rw [Shape.rowMajor_val_four, Shape.rowMajor_val_four]
  show ((b.val * 32 + ch.val) * 160 + r.val) * 160 + l.val = ((b.val * 32 + ch.val) * 200 + h.val) * 128 + w.val
  omega

/-- The targets transposed and re-read as `[32, 4, 200, 128]`: entry `(b, c, h, w)` is coordinate `c` of
    location `h·128 + w`. -/
theorem targets_apply (T : S32x25600x4.Idx → EReal) (b : Fin 32) (c4 : Fin 4) (h : Fin 200) (w : Fin 128)
    (p : Fin 25600) (hp : p.val = h.val * 128 + w.val) :
    shapeCast S32x4x200x128 (transpose S32x4x25600 [0, 2, 1] T transposes_S32x25600x4_S32x4x25600_0_2_1)
        shapeCasts_S32x4x25600_S32x4x200x128 (ix4 b c4 h w) = T (ix3 b p c4) := by
  refine (shapeCast_apply _ _ (ix4 b c4 h w) (ix3 b c4 p) ?_).trans ?_
  · rw [Shape.rowMajor_val_three, Shape.rowMajor_val_four]
    show (b.val * 4 + c4.val) * 25600 + p.val = ((b.val * 4 + c4.val) * 200 + h.val) * 128 + w.val
    omega
  · refine transpose_apply _ T _ (ix3 b c4 p) (ix3 b p c4) fun a => ?_
    match a with
    | ⟨0, _⟩ => rfl
    | ⟨1, _⟩ => rfl
    | ⟨2, _⟩ => rfl

/-- The mask as numbers re-read as `[32, 200, 128]`: entry `(b, h, w)` is the mask bit of location `h·128 + w`. -/
theorem mask_apply (M : S32x25600.Idx → BitVec 1) (b : Fin 32) (h : Fin 200) (w : Fin 128)
    (p : Fin 25600) (hp : p.val = h.val * 128 + w.val) :
    shapeCast S32x200x128 (uitofp (F := Ideal) .f32 M) shapeCasts_S32x25600_S32x200x128 (ix3 b h w) = mf (M (ix2 b p)) := by
  refine (shapeCast_apply _ _ (ix3 b h w) (ix2 b p) ?_).trans rfl
  rw [Shape.rowMajor_val_two, Shape.rowMajor_val_three]
  show b.val * 25600 + p.val = (b.val * 200 + h.val) * 128 + w.val
  omega

/-! ## Where a grid point's blocks sit -/

theorem index0 : ∀ t : Fin cfg0.N, win0_0.index t 0 = t.val / 5 ∧ win0_0.index t 1 = 0 ∧ win0_0.index t 2 = t.val % 5 ∧ win0_0.index t 3 = 0 :=
  (by decide +kernel : ∀ t : Fin grid0.N, win0_0.index t 0 = t.val / 5 ∧ win0_0.index t 1 = 0 ∧ win0_0.index t 2 = t.val % 5 ∧ win0_0.index t 3 = 0)
theorem index1 : ∀ t : Fin cfg0.N, win0_1.index t 0 = t.val / 5 ∧ win0_1.index t 1 = 0 ∧ win0_1.index t 2 = t.val % 5 ∧ win0_1.index t 3 = 0 :=
  (by decide +kernel : ∀ t : Fin grid0.N, win0_1.index t 0 = t.val / 5 ∧ win0_1.index t 1 = 0 ∧ win0_1.index t 2 = t.val % 5 ∧ win0_1.index t 3 = 0)
theorem index2 : ∀ t : Fin cfg0.N, win0_2.index t 0 = t.val / 5 ∧ win0_2.index t 1 = t.val % 5 ∧ win0_2.index t 2 = 0 :=
  (by decide +kernel : ∀ t : Fin grid0.N, win0_2.index t 0 = t.val / 5 ∧ win0_2.index t 1 = t.val % 5 ∧ win0_2.index t 2 = 0)

/-- Entry `(b', ch, h, w)` of the logits block at point `t`. -/
theorem iblk0_apply (c : Dev nD) (t : Fin cfg0.N) (b' : Fin 8) (ch : Fin 32) (h : Fin 40) (w : Fin 128)
    (b : Fin 32) (hh : Fin 200) (hb : b.val = 8 * (t.val / 5) + b'.val) (hhh : hh.val = 40 * (t.val % 5) + h.val) :
    (iblk (F := Ideal) m c 0 t : S8x32x40x128.Idx → EReal) (ix4 b' ch h w)
      = (V (F := Ideal) m c main_v0 : S32x32x200x128.Idx → EReal) (ix4 b ch hh w) := by
  unfold iblk
  rw [View.read_apply]
  show V (F := Ideal) m c main_v0 _ = V (F := Ideal) m c main_v0 _
  congr 1
  funext a
  apply Fin.ext
  obtain ⟨i0, i1, i2, i3⟩ := index0 t
  match a with
  | ⟨0, _⟩ => show win0_0.index t 0 * 8 + 1 * b'.val = b.val; rw [i0]; omega
  | ⟨1, _⟩ => show win0_0.index t 1 * 32 + 1 * ch.val = ch.val; rw [i1]; omega
  | ⟨2, _⟩ => show win0_0.index t 2 * 40 + 1 * h.val = hh.val; rw [i2]; omega
  | ⟨3, _⟩ => show win0_0.index t 3 * 128 + 1 * w.val = w.val; rw [i3]; omega

/-- Entry `(b', c, h, w)` of the targets block at point `t`. -/
theorem iblk1_apply (c : Dev nD) (t : Fin cfg0.N) (b' : Fin 8) (c4 : Fin 4) (h : Fin 40) (w : Fin 128)
    (b : Fin 32) (hh : Fin 200) (hb : b.val = 8 * (t.val / 5) + b'.val) (hhh : hh.val = 40 * (t.val % 5) + h.val) :
    (iblk (F := Ideal) m c 1 t : S8x4x40x128.Idx → EReal) (ix4 b' c4 h w)
      = (V (F := Ideal) m c main_v2 : S32x4x200x128.Idx → EReal) (ix4 b c4 hh w) := by
  unfold iblk
  rw [View.read_apply]
  show V (F := Ideal) m c main_v2 _ = V (F := Ideal) m c main_v2 _
  congr 1
  funext a
  apply Fin.ext
  obtain ⟨i0, i1, i2, i3⟩ := index1 t
  match a with
  | ⟨0, _⟩ => show win0_1.index t 0 * 8 + 1 * b'.val = b.val; rw [i0]; omega
  | ⟨1, _⟩ => show win0_1.index t 1 * 4 + 1 * c4.val = c4.val; rw [i1]; omega
  | ⟨2, _⟩ => show win0_1.index t 2 * 40 + 1 * h.val = hh.val; rw [i2]; omega
  | ⟨3, _⟩ => show win0_1.index t 3 * 128 + 1 * w.val = w.val; rw [i3]; omega

/-- Entry `(b', h, w)` of the mask block at point `t`. -/
theorem iblk2_apply (c : Dev nD) (t : Fin cfg0.N) (b' : Fin 8) (h : Fin 40) (w : Fin 128)
    (b : Fin 32) (hh : Fin 200) (hb : b.val = 8 * (t.val / 5) + b'.val) (hhh : hh.val = 40 * (t.val % 5) + h.val) :
    (iblk (F := Ideal) m c 2 t : S8x40x128.Idx → EReal) (ix3 b' h w)
      = (V (F := Ideal) m c main_v4 : S32x200x128.Idx → EReal) (ix3 b hh w) := by
  unfold iblk
  rw [View.read_apply]
  show V (F := Ideal) m c main_v4 _ = V (F := Ideal) m c main_v4 _
  congr 1
  funext a
  apply Fin.ext
  obtain ⟨i0, i1, i2⟩ := index2 t
  match a with
  | ⟨0, _⟩ => show win0_2.index t 0 * 8 + 1 * b'.val = b.val; rw [i0]; omega
  | ⟨1, _⟩ => show win0_2.index t 1 * 40 + 1 * h.val = hh.val; rw [i1]; omega
  | ⟨2, _⟩ => show win0_2.index t 2 * 128 + 1 * w.val = w.val; rw [i2]; omega

/-! ## The blocks in terms of the three argument arrays -/

/-- Row `40·j + h` of the 200. -/
def row200 (j : Fin 5) (h : Fin 40) : Fin 200 := ⟨j.val * 40 + h.val, by have := j.isLt; have := h.isLt; omega⟩

/-- Bin `k` of coordinate `c` at batch row `b`, location `(40·j + h)·128 + w`, in the logits block of the point
    `(b / 8, j)`. -/
theorem logit_at (c : Dev nD) (b : Fin 32) (j : Fin 5) (t : Fin cfg0.N) (ht : t.val = 5 * (b.val / 8) + j.val)
    (b' : Fin 8) (hb' : b'.val = b.val % 8) (c4 : Fin 4) (k : Fin 8) (h : Fin 40) (w : Fin 128) :
    (iblk (F := Ideal) m c 0 t : S8x32x40x128.Idx → EReal) (ix4 b' (chan c4 k) h w)
      = (m ((c : Thread nD τ).loc main_arg0) : SX.Idx → EReal) (xAt (ix3 b (loc j h w) c4) k) := by
  have hj := j.isLt
  refine (iblk0_apply m c t b' (chan c4 k) h w b (row200 j h) (by omega)
    (by show j.val * 40 + h.val = _; omega)).trans ?_
  rw [V_v0]
  exact logits_apply _ b (chan c4 k) (row200 j h) w ⟨(loc j h w).val / 160, by have := (loc j h w).isLt; omega⟩
    ⟨(loc j h w).val % 160, Nat.mod_lt _ (by norm_num)⟩ rfl rfl

/-- Coordinate `c` of the target at batch row `b`, location `(40·j + h)·128 + w`. -/
theorem target_at (c : Dev nD) (b : Fin 32) (j : Fin 5) (t : Fin cfg0.N) (ht : t.val = 5 * (b.val / 8) + j.val)
    (b' : Fin 8) (hb' : b'.val = b.val % 8) (c4 : Fin 4) (h : Fin 40) (w : Fin 128) :
    (iblk (F := Ideal) m c 1 t : S8x4x40x128.Idx → EReal) (ix4 b' c4 h w)
      = (m ((c : Thread nD τ).loc main_arg1) : ST.Idx → EReal) (ix3 b (loc j h w) c4) := by
  have hj := j.isLt
  refine (iblk1_apply m c t b' c4 h w b (row200 j h) (by omega) (by show j.val * 40 + h.val = _; omega)).trans ?_
  rw [V_v2]
  exact targets_apply _ b c4 (row200 j h) w (loc j h w) rfl

/-- The mask at batch row `b`, location `(40·j + h)·128 + w`, as a number. -/
theorem mask_at (c : Dev nD) (b : Fin 32) (j : Fin 5) (t : Fin cfg0.N) (ht : t.val = 5 * (b.val / 8) + j.val)
    (b' : Fin 8) (hb' : b'.val = b.val % 8) (h : Fin 40) (w : Fin 128) :
    (iblk (F := Ideal) m c 2 t : S8x40x128.Idx → EReal) (ix3 b' h w)
      = mf ((m ((c : Thread nD τ).loc main_arg2) : SM.Idx → BitVec 1) (ix2 b (loc j h w))) := by
  have hj := j.isLt
  refine (iblk2_apply m c t b' h w b (row200 j h) (by omega) (by show j.val * 40 + h.val = _; omega)).trans ?_
  rw [V_v4]
  exact mask_apply _ b (row200 j h) w (loc j h w) rfl

/-- The losses a point adds for batch row `b`: those of the row's locations in the point's 40 rows. -/
theorem blkTot_at (c : Dev nD) (b : Fin 32) (j : Fin 5) (t : Fin cfg0.N) (ht : t.val = 5 * (b.val / 8) + j.val)
    (b' : Fin 8) (hb' : b'.val = b.val % 8) :
    blkTot (iblk (F := Ideal) m c 0 t) (iblk (F := Ideal) m c 1 t) (iblk (F := Ideal) m c 2 t) b'
      = ∑ c4 : Fin 4, ∑ h : Fin 40, ∑ w : Fin 128,
          cell perK (m ((c : Thread nD τ).loc main_arg0)) (m ((c : Thread nD τ).loc main_arg1))
            (m ((c : Thread nD τ).loc main_arg2)) (ix3 b (loc j h w) c4) := by
  unfold blkTot
  refine Finset.sum_congr rfl fun c4 _ => Finset.sum_congr rfl fun h _ => Finset.sum_congr rfl fun w _ => ?_
  unfold cell
  have e0 : (fun k => (iblk (F := Ideal) m c 0 t : S8x32x40x128.Idx → EReal) (ix4 b' (chan c4 k) h w))
      = fun k => (m ((c : Thread nD τ).loc main_arg0) : SX.Idx → EReal) (xAt (ix3 b (loc j h w) c4) k) :=
    funext fun k => logit_at m c b j t ht b' hb' c4 k h w
  rw [e0, target_at m c b j t ht b' hb' c4 h w, mask_at m c b j t ht b' hb' h w]
  rfl

/-- The positive locations a point counts for batch row `b`. -/
theorem blkPos_at (c : Dev nD) (b : Fin 32) (j : Fin 5) (t : Fin cfg0.N) (ht : t.val = 5 * (b.val / 8) + j.val)
    (b' : Fin 8) (hb' : b'.val = b.val % 8) :
    blkPos (iblk (F := Ideal) m c 2 t) b'
      = ∑ h : Fin 40, ∑ w : Fin 128, mf ((m ((c : Thread nD τ).loc main_arg2) : SM.Idx → BitVec 1) (ix2 b (loc j h w))) := by
  unfold blkPos
  exact Finset.sum_congr rfl fun h _ => Finset.sum_congr rfl fun w _ => mask_at m c b j t ht b' hb' h w

end Cert.Dfl.Kern

end
-- ==== Proof.KernelRun.lean ====
import proofs.«121826_j10127532883990_2_alg».proof.Proof.KernOut
import proofs.«121826_j10127532883990_2_alg».proof.Proof.KernBlocks
import Idealize.ShloMosaic.Lib.Pipeline.Value
import Idealize.ShloMosaic.Lib.StableHlo.Run

/-!
# The value the kernel's program ends with

After the grid has run, the program sums column 0 of the `[32, 2]` output array (the masked losses, one entry per
batch row) and column 1 (the positive locations per batch row) from zero, and applies `finish` to the two sums.
With the output array read row by row and each grid point's blocks read entry by entry, the result is `finish` of
the total masked loss and the number of positive locations, the sums arranged batch row by batch row and, within a
row, by the five 40-row bands of the 200 × 128 layout of the locations.
-/

noncomputable section

namespace Cert.Dfl.Kern

open Idealize.ShloMosaic Idealize.ShloMosaic.TcCoe Idealize.ShloMosaic.ValueIdx Cert.KernelIdeal Cert.KernelIdeal.Gen
open Idealize.ShloMosaic.Pipeline (Dat)
open Idealize.SL.Sem

variable (m : (ℓ : Loc nD τ sig) → Buf (Elt Ideal) ℓ)

/-- A rank-1 index is its one coordinate … -/
def idxEquiv1 {n : ℕ} : (⟨1, ![n]⟩ : Shape).Idx ≃ Fin n where
  toFun i := i 0
  invFun b := ix1 b
  left_inv i := (eq_ix1 i).symm
  right_inv _ := rfl

/-- … so a sum over rank-1 indices is the sum over the coordinate. -/
theorem sum_idx1 {M : Type*} [AddCommMonoid M] {n : ℕ} (f : (⟨1, ![n]⟩ : Shape).Idx → M) :
    ∑ i, f i = ∑ b : Fin n, f (ix1 b) := by
  rw [← Equiv.sum_comp (idxEquiv1 (n := n)).symm f]
  rfl

/-- A column of a `[32, 2]` array summed by the host: slice the column, drop its unit axis, reduce from zero. -/
theorem col_sum (A : S32x2.Idx → EReal) (off : Fin 2 → ℕ) (q : Fin 2) (hoff : off = ![0, q.val])
    (hs : S32x2.Slices off S32x1) (i : S_.Idx) :
    Ideal.hostReduceAdd reducesTo_S32_S_d0 (shapeCast S32 (extractStridedSlice S32x1 off A hs) shapeCasts_S32x1_S32)
        (Ideal.ofBits .f32 0x00000000#32) i = ∑ b : Fin 32, A (ix2 b q) := by
  subst hoff
  rw [Ideal.hostReduceAdd_total reducesTo_S32_S_d0 (fun a => a.elim0), Ideal.ofBits_zero_f32, zero_add, sum_idx1]
  refine Finset.sum_congr rfl fun b _ => ?_
  refine (shapeCast_apply _ _ (ix1 b) (ix2 b 0) ?_).trans ?_
  · rw [Shape.rowMajor_val_two, Shape.rowMajor_val_one]
    show b.val * 1 + 0 = b.val
    omega
  · refine extractStridedSlice_apply _ A hs (ix2 b 0) (ix2 b q) fun a => ?_
    match a with
    | ⟨0, _⟩ => show b.val = 0 + b.val; omega
    | ⟨1, _⟩ => show q.val = q.val + 0; omega

/-- The last lines of the program on a total `t` and a count `n`: `finish`. -/
theorem where_tail (t n : S_.Idx → EReal) :
    (StableHlo.TRef.of (sig := sig) (T := ⟨S_, .f32⟩) main_v16).toBuf (Val := Elt Ideal)
      (select ((StableHlo.TRef.of (sig := sig) (T := ⟨S_, .i1⟩) main_v12).ofBuf (Val := Elt Ideal)
          (cmpf (F := Ideal) .ogt n (constant (F := Ideal) S_ .f32 0#32)))
        ((StableHlo.TRef.of (sig := sig) (T := ⟨S_, .f32⟩) main_v15).ofBuf (Val := Elt Ideal)
          (Host.divf (F := Ideal) t (mulf (maximumf n (constant (F := Ideal) S_ .f32 0x3F800000#32))
            (constant (F := Ideal) S_ .f32 0x40800000#32))))
        ((StableHlo.TRef.of (sig := sig) (T := ⟨S_, .f32⟩) main_cst_4).ofBuf (Val := Elt Ideal)
          (constant (F := Ideal) S_ .f32 0#32)))
      = fun i => finish (t i) (n i) :=
  funext fun _ => rfl

set_option maxHeartbeats 400000 in
/-- What the lines after the grid leave in the result: `finish` of the two column sums of the output array. -/
theorem tail_eq (c : Dev nD) :
    (Pipeline.afterTail₀ cfgs (dats (F := Ideal) m) 0 (V0 m) [hostOps1, hostOps1_1] c main_v16 : S_.Idx → EReal)
      = fun _ => finish (∑ b : Fin 32, outArr m c (ix2 b 0)) (∑ b : Fin 32, outArr m c (ix2 b 1)) := by
  unfold Pipeline.afterTail₀
  simp only [hostOps1, hostOps1_1, List.flatten_cons, List.flatten_nil, List.append_nil, List.cons_append, List.nil_append]
  after_results
  have hA : Pipeline.withArrays (cfgs 0).spec c (V0 m c) (fun w => (dats (F := Ideal) m 0 c).arrAt w (cfgs 0).N)
      (Proc.devRef .tc main_v5) = outArr m c :=
    (Pipeline.withArrays_arr spec0 launch0.win.arr_inj c _ _ 3).trans (final_out m c)
  rw [hA]
  have e8 := col_sum (outArr m c) ![0, 0] 0 rfl slices_S32x2_S32x1_0_0
  have e11 := col_sum (outArr m c) ![0, 1] 1 rfl slices_S32x2_S32x1_0_1
  generalize hR : Host.reduceAdd (F := Ideal) (φ := .f32) (s := S32) (t := S_) (u := S_) _
    (constant (F := Ideal) S_ .f32 0#32) reducesTo_S32_S_d0 h_S_ = R
  generalize hR' : Host.reduceAdd (F := Ideal) (φ := .f32) (s := S32) (t := S_) (u := S_) _
    (constant (F := Ideal) S_ .f32 0#32) reducesTo_S32_S_d0 h_S_ = R'
  have h1 : R = fun _ => ∑ b : Fin 32, outArr m c (ix2 b 1) := by
    rw [← hR]; funext i; exact e11 i
  have h0 : R' = fun _ => ∑ b : Fin 32, outArr m c (ix2 b 0) := by
    rw [← hR']; funext i; exact e8 i
  rw [h0, h1]
  exact where_tail (fun _ => ∑ b : Fin 32, outArr m c (ix2 b 0)) (fun _ => ∑ b : Fin 32, outArr m c (ix2 b 1))

/-! ## The output array in terms of the three argument arrays -/

/-- Column 0 of row `b`: the masked losses of batch row `b`, summed over the five 40-row bands, the four coordinates
    and each band's locations. -/
theorem out_col0 (c : Dev nD) (b : Fin 32) :
    outArr m c (ix2 b 0) = ∑ j : Fin 5, ∑ c4 : Fin 4, ∑ h : Fin 40, ∑ w : Fin 128,
      cell perK (m ((c : Thread nD τ).loc main_arg0)) (m ((c : Thread nD τ).loc main_arg1))
        (m ((c : Thread nD τ).loc main_arg2)) (ix3 b (loc j h w) c4) := by
  have hb := b.isLt
  show rowSum m c (b.val / 8) ⟨b.val % 8, Nat.mod_lt _ (by norm_num)⟩ 0 = _
  unfold rowSum
  rw [Finset.sum_range]
  refine Finset.sum_congr rfl fun j _ => ?_
  have hj := j.isLt
  have ht : 5 * (b.val / 8) + j.val < cfg0.N := by rw [show cfg0.N = 20 from N_0]; omega
  rw [addend_of_lt m c _ ht]
  unfold blk
  rw [if_pos (show ((ix2 (⟨b.val % 8, Nat.mod_lt _ (by norm_num)⟩ : Fin 8) (0 : Fin 2)) 1).val = 0 from rfl)]
  exact blkTot_at m c b j ⟨5 * (b.val / 8) + j.val, ht⟩ rfl ⟨b.val % 8, Nat.mod_lt _ (by norm_num)⟩ rfl

/-- Column 1 of row `b`: the number of positive locations of batch row `b`. -/
theorem out_col1 (c : Dev nD) (b : Fin 32) :
    outArr m c (ix2 b 1) = ∑ j : Fin 5, ∑ h : Fin 40, ∑ w : Fin 128,
      mf ((m ((c : Thread nD τ).loc main_arg2) : SM.Idx → BitVec 1) (ix2 b (loc j h w))) := by
  have hb := b.isLt
  show rowSum m c (b.val / 8) ⟨b.val % 8, Nat.mod_lt _ (by norm_num)⟩ 1 = _
  unfold rowSum
  rw [Finset.sum_range]
  refine Finset.sum_congr rfl fun j _ => ?_
  have hj := j.isLt
  have ht : 5 * (b.val / 8) + j.val < cfg0.N := by rw [show cfg0.N = 20 from N_0]; omega
  rw [addend_of_lt m c _ ht]
  unfold blk
  rw [if_neg (show ¬((ix2 (⟨b.val % 8, Nat.mod_lt _ (by norm_num)⟩ : Fin 8) (1 : Fin 2)) 1).val = 0 from Nat.one_ne_zero)]
  exact blkPos_at m c b j ⟨5 * (b.val / 8) + j.val, ht⟩ rfl ⟨b.val % 8, Nat.mod_lt _ (by norm_num)⟩ rfl

/-! ## The run -/

/-- Every run of the kernel's program ends with the result at `finish` of the total masked loss and the number of
    positive locations — the sums taken batch row by batch row, band by band — and the three arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v16)
          = (fun _ => finish
              (∑ b : Fin 32, ∑ j : Fin 5, ∑ c4 : Fin 4, ∑ h : Fin 40, ∑ w : Fin 128,
                cell perK (m ((c.tc : Thread nD τ).loc main_arg0)) (m ((c.tc : Thread nD τ).loc main_arg1))
                  (m ((c.tc : Thread nD τ).loc main_arg2)) (ix3 b (loc j h w) c4))
              (∑ b : Fin 32, ∑ j : Fin 5, ∑ h : Fin 40, ∑ w : Fin 128,
                mf ((m ((c.tc : Thread nD τ).loc main_arg2) : SM.Idx → BitVec 1) (ix2 b (loc j h w)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v16 (Pipeline.mem_restRefs_of main_v16 (by decide) (by decide))).trans
        ((tail_eq m c).trans (funext fun _ => congrArg₂ finish
          (Finset.sum_congr rfl fun b _ => out_col0 m c b) (Finset.sum_congr rfl fun b _ => out_col1 m c b))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Dfl.Kern

end
-- ==== Proof.SpecLaws.lean ====
import proofs.«121826_j10127532883990_2_alg».proof.Proof.SpecBins

/-!
# The two forms of one location's loss agree

For real logits `x 0 … x 7` the largest logit `M` is one of them, hence real; `∑ exp (x k - M)` is a positive real, so its
logarithm `L` is real; the two weights are reals `wl = 1 - u` and `wu = u`.  With `a`, `b` the logits at the lower and the
upper bin,

  `perK = (M + L) - (a · wl + b · wu)`   and   `perR = wl · -((a - M) - L) + wu · -((b - M) - L)`,

and these are equal because `wl + wu = 1`.
-/

noncomputable section

namespace Cert.Dfl

open Idealize.ShloMosaic

/-- A finite sum of reals, taken in the extended reals, is the real sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The largest of eight real logits is one of them, so it is real. -/
theorem mx_real (x : Fin 8 → EReal) (hx : ∀ k, ∃ r : ℝ, x k = (r : EReal)) : ∃ r : ℝ, mx x = (r : EReal) := by
  have h : mx x = (Finset.univ : Finset (Fin 8)).sup x := by
    unfold mx
    rw [ofBits_ninf]
    rfl
  obtain ⟨i, -, hi⟩ := Finset.exists_mem_eq_sup (Finset.univ : Finset (Fin 8)) Finset.univ_nonempty x
  obtain ⟨r, hr⟩ := hx i
  exact ⟨r, by rw [h, hi, hr]⟩

/-- For real logits `log ∑ exp (x k - max x)` is real: the sum is a positive real. -/
theorem lse_real (x : Fin 8 → EReal) (hx : ∀ k, ∃ r : ℝ, x k = (r : EReal)) : ∃ r : ℝ, lse x = (r : EReal) := by
  obtain ⟨M, hM⟩ := mx_real x hx
  choose xr hxr using hx
  have hse : se x = ((∑ k : Fin 8, Real.exp (xr k - M) : ℝ) : EReal) := by
    unfold se
    rw [← coe_sum]
    refine Finset.sum_congr rfl fun k _ => ?_
    rw [hxr k, hM, ← EReal.coe_sub, Ideal.exp_coe]
  have hpos : 0 < ∑ k : Fin 8, Real.exp (xr k - M) :=
    Finset.sum_pos (fun k _ => Real.exp_pos _) Finset.univ_nonempty
  refine ⟨Real.log (∑ k : Fin 8, Real.exp (xr k - M)), ?_⟩
  unfold lse
  rw [hse, Ideal.log_coe, if_neg (not_le.2 hpos)]

/-- The law: for real logits the two forms of one location's loss are equal. -/
theorem per_eq (x : Fin 8 → EReal) (t : EReal) (hx : ∀ k, ∃ r : ℝ, x k = (r : EReal)) : perK x t = perR x t := by
  obtain ⟨M, hM⟩ := mx_real x hx
  obtain ⟨L, hL⟩ := lse_real x hx
  obtain ⟨u, hu, hl, -, -⟩ := wu_wl_real t
  obtain ⟨a, ha⟩ := hx (loF t)
  obtain ⟨b, hb⟩ := hx (hiF t)
  unfold perK perR logp
  rw [sum_binw, hM, hL, hu, hl, ha, hb]
  simp only [← EReal.coe_add, ← EReal.coe_sub, ← EReal.coe_mul, ← EReal.coe_neg]
  rw [EReal.coe_eq_coe_iff]
  ring

end Cert.Dfl

end
-- ==== Proof.LibBlockedSums.lean ====
import Idealize.ShloMosaic.Lib.ValueIdx
import proofs.«121826_j10127532883990_2_alg».proof.Proof.Spec

/-!
# Sums over the locations, block by block

The 25600 locations are walked as five blocks of forty rows of 128 lanes: location `(40·j + h)·128 + w`.
Every location is reached exactly once, so a sum over all locations is the triple sum over `(j, h, w)`.
The two lemmas below say this for a sum over the target entries `(batch, location, coordinate)` and for a
sum over the mask entries `(batch, location)`, in any commutative additive monoid.
-/

open scoped BigOperators

namespace Cert.Dfl.Sums

open Idealize.ShloMosaic Idealize.ShloMosaic.ValueIdx

variable {A : Type*} [AddCommMonoid A]

/-- `(j, h, w) ↦ (40·j + h)·128 + w` is a bijection onto the 25600 locations; the inverse is
    `n ↦ (n / 5120, n / 128 % 40, n % 128)`. -/
def locEquiv : Fin 5 × Fin 40 × Fin 128 ≃ Fin 25600 where
  toFun p := loc p.1 p.2.1 p.2.2
  invFun n :=
    (⟨n.val / 5120, by have := n.isLt; omega⟩, ⟨n.val / 128 % 40, by omega⟩, ⟨n.val % 128, by omega⟩)
  left_inv := by
    rintro ⟨j, h, w⟩
    have hj := j.isLt; have hh := h.isLt; have hw := w.isLt
    refine Prod.ext (Fin.ext ?_) (Prod.ext (Fin.ext ?_) (Fin.ext ?_))
    · show ((j.val * 40 + h.val) * 128 + w.val) / 5120 = j.val; omega
    · show ((j.val * 40 + h.val) * 128 + w.val) / 128 % 40 = h.val; omega
    · show ((j.val * 40 + h.val) * 128 + w.val) % 128 = w.val; omega
  right_inv := by
    intro n
    have hn := n.isLt
    refine Fin.ext ?_
    show (n.val / 5120 * 40 + n.val / 128 % 40) * 128 + n.val % 128 = n.val
    omega

/-- A sum over the locations is the sum over the blocks, the rows of a block and the lanes. -/
theorem sum_loc (f : Fin 25600 → A) :
    (∑ j : Fin 5, ∑ h : Fin 40, ∑ w : Fin 128, f (loc j h w)) = ∑ p : Fin 25600, f p := by
  rw [← Equiv.sum_comp locEquiv f, Fintype.sum_prod_type]
  refine Finset.sum_congr rfl fun j _ => ?_
  rw [Fintype.sum_prod_type]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → A) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over all target entries, taken batch by batch, block by block, coordinate by coordinate, then over
    the rows and lanes of the block. -/
theorem sum_blocked3 (g : Cert.Dfl.ST.Idx → A) :
    (∑ b : Fin 32, ∑ j : Fin 5, ∑ c : Fin 4, ∑ h : Fin 40, ∑ w : Fin 128, g (ix3 b (loc j h w) c))
      = ∑ i : Cert.Dfl.ST.Idx, g i := by
  rw [sum_idx3 g]
  refine Finset.sum_congr rfl fun b _ => ?_
  rw [← sum_loc (fun p => ∑ c : Fin 4, g (ix3 b p c))]
  refine Finset.sum_congr rfl fun j _ => ?_
  -- move the sum over the coordinate outside the sums over rows and lanes
  rw [Finset.sum_comm]
  refine Finset.sum_congr rfl fun h _ => ?_
  rw [Finset.sum_comm]

/-- The sum over all mask entries, taken batch by batch, block by block, then over the rows and lanes. -/
theorem sum_blocked2 (g : Cert.Dfl.SM.Idx → A) :
    (∑ b : Fin 32, ∑ j : Fin 5, ∑ h : Fin 40, ∑ w : Fin 128, g (ix2 b (loc j h w)))
      = ∑ i : Cert.Dfl.SM.Idx, g i := by
  rw [sum_idx2 g]
  refine Finset.sum_congr rfl fun b _ => ?_
  exact sum_loc (fun p => g (ix2 b p))

end Cert.Dfl.Sums
-- ==== Proof.Bridge.lean ====
import proofs.«121826_j10127532883990_2_alg».proof.Proof.Spec
import proofs.«121826_j10127532883990_2_alg».proof.Proof.SpecLaws
import proofs.«121826_j10127532883990_2_alg».proof.Proof.LibBlockedSums

/-!
# The block-by-block sum of the first form is the whole loss in the second form

Summing block by block reaches every target entry and every mask entry exactly once, and at real logits the two forms of
one location's loss agree, so the two totals — and the two counts of positive locations — are the same numbers.
-/

noncomputable section

namespace Cert.Dfl

open Idealize.ShloMosaic Idealize.ShloMosaic.ValueIdx

/-- At real logits the masked loss of an entry is the same in both forms. -/
theorem cell_eq (X : SX.Idx → EReal) (T : ST.Idx → EReal) (M : SM.Idx → BitVec 1)
    (hX : ∀ i, ∃ r : ℝ, X i = (r : EReal)) (i : ST.Idx) : cell perK X T M i = cell perR X T M i := by
  unfold cell
  rw [per_eq _ _ (fun k => hX (xAt i k))]

/-- The block-by-block total and count, finished, are the loss in the second form. -/
theorem loss_bridge (X : SX.Idx → EReal) (T : ST.Idx → EReal) (M : SM.Idx → BitVec 1)
    (hX : ∀ i, ∃ r : ℝ, X i = (r : EReal)) :
    finish (∑ b : Fin 32, ∑ j : Fin 5, ∑ c : Fin 4, ∑ h : Fin 40, ∑ w : Fin 128, cell perK X T M (ix3 b (loc j h w) c))
           (∑ b : Fin 32, ∑ j : Fin 5, ∑ h : Fin 40, ∑ w : Fin 128, mf (M (ix2 b (loc j h w))))
      = loss perR X T M := by
  rw [Sums.sum_blocked3 (fun i => cell perK X T M i), Sums.sum_blocked2 (fun i => mf (M i))]
  unfold loss
  rw [Finset.sum_congr rfl (fun i _ => cell_eq X T M hX i)]

end Cert.Dfl

end
-- ==== Proof.Finite.lean ====
import proofs.«121826_j10127532883990_2_alg».proof.Defs
import proofs.«121826_j10127532883990_2_alg».proof.Proof.Gen.Pre_finite_inputs
import Idealize.ShloMosaic.Lib.ReduceAll
import Idealize.ShloMosaic.Lib.ValueIdx
import Idealize.ShloMosaic.PureOps.Ideal.Laws

/-!
# Under the precondition every logit is a real number

The precondition says: `|x| < +∞` for every logit `x` and `|t| < +∞` for every target `t`, all of these
comparisons folded together by `and`, and the result is `1`.  A fold by `and` that is `1` met only `1`s, so each single
comparison holds; and an extended real `a` with `max a (-a) < +∞` is neither `+∞` nor `-∞`, that is, it is a real.
-/

namespace Cert.Dfl.Fin

open Idealize.ShloMosaic Idealize.ShloMosaic.ValueIdx

/-- The scalar shape has one index. -/
instance : Subsingleton Cert.Pre_finite_inputs.S_.Idx := ⟨fun a b => funext fun d => d.elim0⟩

/-- The bit pattern `0x7F800000` is `+∞`. -/
theorem ofBits_inf : Ideal.ofBits .f32 0x7F800000#32 = (⊤ : EReal) := by
  simp [Ideal.ofBits, Ideal.ieee]

/-- An extended real whose absolute value `max a (-a)` is below `+∞` is a real. -/
theorem real_of_abs_lt_top (a : EReal)
    (h : Ideal.cmp .olt (max a (-a)) (Ideal.ofBits .f32 0x7F800000#32) = 1#1) :
    ∃ r : ℝ, a = (r : EReal) := by
  rw [ofBits_inf] at h
  induction a using EReal.rec with
  | bot => exact absurd h (by simp [Ideal.cmp])
  | top => exact absurd h (by simp [Ideal.cmp])
  | coe r => exact ⟨r, rfl⟩

/-- Under the precondition every logit is a real. -/
theorem logits_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32x32x160x160.Idx) :
    ∃ r : ℝ, m ((c.tc : Thread _ _).loc Cert.KernelIdeal.main_arg0) i = (r : EReal) := by
  have h0 := congrFun (h c) ValueIdx.ix0
  dsimp only [Cert.Pre_finite_inputs.fn] at h0
  -- the conjunction's first half is the fold over the logits
  have h1 := (IntOp.andi_eq_one.1 h0).1
  -- a fold by `and` that is `1` met `1` at every index
  have h2 := Host.reduce_andi_all _ _ _ _ _ h1 i
  exact real_of_abs_lt_top _ h2

/-- Under the precondition every target is a real. -/
theorem targets_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32x25600x4.Idx) :
    ∃ r : ℝ, m ((c.tc : Thread _ _).loc Cert.KernelIdeal.main_arg1) i = (r : EReal) := by
  have h0 := congrFun (h c) ValueIdx.ix0
  dsimp only [Cert.Pre_finite_inputs.fn] at h0
  have h1 := (IntOp.andi_eq_one.1 h0).2
  have h2 := Host.reduce_andi_all _ _ _ _ _ h1 i
  exact real_of_abs_lt_top _ h2

end Cert.Dfl.Fin
-- ==== Proof.lean ====
/-
  The distribution-focal loss of a batch of box-regression logits, computed by a tiled kernel and by a plain reference.

  For every batch entry, location and box coordinate there are eight bin logits and one target.  The clipped target
  lies between two neighbouring bins `lo` and `hi = lo + 1` with weights `wl = 1 - wu` and `wu`; the entry's loss is
  `wl · (-logp lo) + wu · (-logp hi)` with `logp k = (x k - max x) - log ∑ exp (x - max x)`; the result is the sum of the
  masked entry losses divided by four times the number of positive locations (zero when there is none).

  * The reference gathers the two log-probabilities (`Cert.Dfl.perR`, `RefCell.lean`, `RefLoss.lean`).
  * The kernel never forms the log-probabilities: it computes `(max x + log ∑ exp (x - max x)) - ∑ k, x k · w k` with `w`
    the weight vector that is `wl` at `lo`, `wu` at `hi` and zero elsewhere (`Cert.Dfl.perK`, `Section.lean`), walks the
    locations as 200 rows of 128 lanes, 40 rows and 8 batch entries at a time, and accumulates per batch entry the pair
    (masked losses, positives) over the five row blocks (`Block.lean`, `KernAcc.lean`, `KernOut.lean`, `KernBlocks.lean`);
    the host then sums the 32 pairs and divides.
  * The two per-entry forms agree at real logits because `wl + wu = 1` (`SpecLaws.lean`), and the kernel's order of
    summation is a re-indexing of the reference's (`LibBlockedSums.lean`); `Bridge.lean` puts the two together.
    Finiteness of the logits is what the precondition gives (`Finite.lean`).
-/
import proofs.«121826_j10127532883990_2_alg».proof.Defs
import proofs.«121826_j10127532883990_2_alg».proof.Proof.Gen.Kernel
import proofs.«121826_j10127532883990_2_alg».proof.Proof.Gen.Kernel.Skeleton
import proofs.«121826_j10127532883990_2_alg».proof.Proof.Gen.Kernel.Launch
import proofs.«121826_j10127532883990_2_alg».proof.Proof.Gen.Kernel.Points
import proofs.«121826_j10127532883990_2_alg».proof.Proof.Gen.Kernel.Frame
import proofs.«121826_j10127532883990_2_alg».proof.Proof.Gen.KernelIdeal
import proofs.«121826_j10127532883990_2_alg».proof.Proof.Gen.KernelIdeal.Skeleton
import proofs.«121826_j10127532883990_2_alg».proof.Proof.Gen.KernelIdeal.Launch
import proofs.«121826_j10127532883990_2_alg».proof.Proof.Gen.KernelIdeal.Points
import proofs.«121826_j10127532883990_2_alg».proof.Proof.Gen.KernelIdeal.Frame
import proofs.«121826_j10127532883990_2_alg».proof.Proof.Gen.ReferenceIdeal
import proofs.«121826_j10127532883990_2_alg».proof.Proof.Gen.Pre_finite_inputs
import proofs.«121826_j10127532883990_2_alg».proof.Proof.RefRunProof
import proofs.«121826_j10127532883990_2_alg».proof.Proof.RefLoss
import proofs.«121826_j10127532883990_2_alg».proof.Proof.KernelRun
import proofs.«121826_j10127532883990_2_alg».proof.Proof.Bridge
import proofs.«121826_j10127532883990_2_alg».proof.Proof.Finite
import Idealize.ShloMosaic.Adequacy
import Idealize.ShloMosaic.Init

noncomputable section

namespace Cert.Proof

open Idealize.ShloMosaic Idealize.ShloMosaic.ValueIdx Idealize.SL.Sem Cert.Dfl

/-- The kernel as printed runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the loss, in the reference's form, of the (agreeing) arguments: the kernel's block-by-block
    sums are the reference's sums re-indexed, and the two per-entry forms agree because the logits are real. -/
theorem algebraic : Cert.algebraic_KernelIdeal_ReferenceIdeal := by
  intro m ρ m' ρ' hpre hagree
  refine ⟨fun c => fun _ => Cert.Dfl.loss Cert.Dfl.perR
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩) (Cert.Dfl.Kern.kernel_run m ρ)
    funext _
    exact Cert.Dfl.loss_bridge _ _ _ (fun i => Cert.Dfl.Fin.logits_real m hpre c i)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.Dfl.Ref.ref_loss, (hagree c).1, (hagree c).2.1, (hagree c).2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
